-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x16 : Shape := ⟨2, ![1600000, 16]⟩
abbrev S100000 : Shape := ⟨1, ![100000]⟩
abbrev S16x64 : Shape := ⟨2, ![16, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg16 : FVec F S64x2 .f32) (main_arg17 : FVec F S2 .f32) (main_v63 : IVec S_ 1) (main_v67 : IVec S_ 1) : IVec S_ 1 :=
  let main_v68 : IVec S_ 1 := andi main_v63 main_v67
  let main_v69 : FVec F S64x2 .f32 := Host.absf main_arg16
  let main_cst_26 : FVec F S_ .f32 := constant S_ .f32 0x7F800000#32
  let main_v70 : FVec F S64x2 .f32 := broadcastInDim S64x2 ![] bcast_S_S64x2 main_cst_26
  let main_v71 : IVec S64x2 1 := cmpf .olt main_v69 main_v70
  let main_c_27 : IVec S_ 1 := constantI S_ 1 1#1
  let main_v72 : IVec S_ 1 := (fun x v => Host.reduce IntOp.andi x v reducesTo_S64x2_S_d0_1 h_S_) main_v71 main_c_27
  let main_v73 : IVec S_ 1 := andi main_v68 main_v72
  let main_v74 : FVec F S2 .f32 := Host.absf main_arg17
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  main_v78

def fn_part3 {F : FTy → Type} [FloatOps F] (main_arg13 : FVec F S64 .f32) (main_arg14 : FVec F S64x64 .f32) (main_arg15 : FVec F S64 .f32) (main_arg16 : FVec F S64x2 .f32) (main_arg17 : FVec F S2 .f32) (main_v48 : IVec S_ 1) (main_v49 : FVec F S16x64 .f32) (main_v50 : FVec F S16x64 .f32) : IVec S_ 1 :=
  let main_v51 : IVec S16x64 1 := cmpf .olt main_v49 main_v50
  let main_c_19 : IVec S_ 1 := constantI S_ 1 1#1
  let main_v52 : IVec S_ 1 := (fun x v => Host.reduce IntOp.andi x v reducesTo_S16x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg14
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_v63 main_v67

def fn_part2 {F : FTy → Type} [FloatOps F] (main_arg9 : FVec F S64 .f32) (main_arg10 : FVec F S64x64 .f32) (main_arg11 : FVec F S64 .f32) (main_arg12 : FVec F S16x64 .f32) (main_arg13 : FVec F S64 .f32) (main_arg14 : FVec F S64x64 .f32) (main_arg15 : FVec F S64 .f32) (main_arg16 : FVec F S64x2 .f32) (main_arg17 : FVec F S2 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S16x64 .f32 := Host.absf main_arg12
  let main_cst_18 : FVec F S_ .f32 := constant S_ .f32 0x7F800000#32
  let main_v50 : FVec F S16x64 .f32 := broadcastInDim S16x64 ![] bcast_S_S16x64 main_cst_18
  fn_part3 (F := F) main_arg13 main_arg14 main_arg15 main_arg16 main_arg17 main_v48 main_v49 main_v50

def fn_part1 {F : FTy → Type} [FloatOps F] (main_arg6 : FVec F S64x64 .f32) (main_arg7 : FVec F S64 .f32) (main_arg8 : FVec F S16x64 .f32) (main_arg9 : FVec F S64 .f32) (main_arg10 : FVec F S64x64 .f32) (main_arg11 : FVec F S64 .f32) (main_arg12 : FVec F S16x64 .f32) (main_arg13 : FVec F S64 .f32) (main_arg14 : FVec F S64x64 .f32) (main_arg15 : FVec F S64 .f32) (main_arg16 : FVec F S64x2 .f32) (main_arg17 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S16x64 .f32 := Host.absf main_arg8
  let main_cst_10 : FVec F S_ .f32 := constant S_ .f32 0x7F800000#32
  let main_v30 : FVec F S16x64 .f32 := broadcastInDim S16x64 ![] bcast_S_S16x64 main_cst_10
  let main_v31 : IVec S16x64 1 := cmpf .olt main_v29 main_v30
  let main_c_11 : IVec S_ 1 := constantI S_ 1 1#1
  let main_v32 : IVec S_ 1 := (fun x v => Host.reduce IntOp.andi x v reducesTo_S16x64_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S100000x64 .f32) (main_arg1 : IVec S2x1600000 32) (main_arg2 : FVec F S1600000x16 .f32) (main_arg3 : IVec S100000 32) (main_arg4 : FVec F S16x64 .f32) (main_arg5 : FVec F S64 .f32) (main_arg6 : FVec F S64x64 .f32) (main_arg7 : FVec F S64 .f32) (main_arg8 : FVec F S16x64 .f32) (main_arg9 : FVec F S64 .f32) (main_arg10 : FVec F S64x64 .f32) (main_arg11 : FVec F S64 .f32) (main_arg12 : FVec F S16x64 .f32) (main_arg13 : FVec F S64 .f32) (main_arg14 : FVec F S64x64 .f32) (main_arg15 : FVec F S64 .f32) (main_arg16 : FVec F S64x2 .f32) (main_arg17 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x16 .f32 := Host.absf main_arg2
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S16x64 .f32 := Host.absf main_arg4
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S100000x64 : Shape := ⟨2, ![100000, 64]⟩
abbrev S2x1600000 : Shape := ⟨2, ![2, 1600000]⟩
abbrev S1600000x16 : Shape := ⟨2, ![1600000, 16]⟩
abbrev S100000 : Shape := ⟨1, ![100000]⟩
abbrev S16x64 : Shape := ⟨2, ![16, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S6400x64 : Shape := ⟨2, ![6400, 64]⟩
abbrev S6400x16 : Shape := ⟨2, ![6400, 16]⟩
abbrev S5000x64 : Shape := ⟨2, ![5000, 64]⟩
abbrev S100000x1 : Shape := ⟨2, ![100000, 1]⟩
abbrev S64x1 : Shape := ⟨2, ![64, 1]⟩
abbrev S1x2 : Shape := ⟨2, ![1, 2]⟩

abbrev nBuf : Space → Nat
  | .hbm => 92
  | .vmem => 48
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x16, .f32⟩
  | .hbm, ⟨3, _⟩ => ⟨S100000, .i32⟩
  | .hbm, ⟨4, _⟩ => ⟨S16x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S16x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S16x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x2, .f32⟩
  | .hbm, ⟨17, _⟩ => ⟨S2, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x64, .f32⟩
  | .hbm, ⟨31, _⟩ => ⟨S1x64, .f32⟩
  | .hbm, ⟨32, _⟩ => ⟨S1600000x64, .f32⟩
  | .hbm, ⟨33, _⟩ => ⟨S_, .f32⟩
  | .hbm, ⟨34, _⟩ => ⟨S100000x64, .f32⟩
  | .hbm, ⟨35, _⟩ => ⟨S1600000x1, .i32⟩
  | .hbm, ⟨36, _⟩ => ⟨S100000x64, .f32⟩
  | .hbm, ⟨37, _⟩ => ⟨S1x64, .f32⟩
  | .hbm, ⟨38, _⟩ => ⟨S100000x64, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .f32⟩
  | .hbm, ⟨48, _⟩ => ⟨S1x64, .f32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S1x64, .f32⟩
  | .hbm, ⟨55, _⟩ => ⟨S100000x64, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x64, .f32⟩
  | .hbm, ⟨65, _⟩ => ⟨S1x64, .f32⟩
  | .hbm, ⟨66, _⟩ => ⟨S1600000x64, .f32⟩
  | .hbm, ⟨67, _⟩ => ⟨S_, .f32⟩
  | .hbm, ⟨68, _⟩ => ⟨S100000x64, .f32⟩
  | .hbm, ⟨69, _⟩ => ⟨S1600000x1, .i32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S_, .f32⟩
  | .hbm, ⟨74, _⟩ => ⟨S64x64, .f32⟩
  | .hbm, ⟨75, _⟩ => ⟨S100000x1, .i32⟩
  | .hbm, ⟨76, _⟩ => ⟨S64x64, .f32⟩
  | .hbm, ⟨77, _⟩ => ⟨S_, .f32⟩
  | .hbm, ⟨78, _⟩ => ⟨S100000x1, .f32⟩
  | .hbm, ⟨79, _⟩ => ⟨S_, .f32⟩
  | .hbm, ⟨80, _⟩ => ⟨S64x1, .f32⟩
  | .hbm, ⟨81, _⟩ => ⟨S100000x1, .i32⟩
  | .hbm, ⟨82, _⟩ => ⟨S64x1, .f32⟩
  | .hbm, ⟨83, _⟩ => ⟨S_, .f32⟩
  | .hbm, ⟨84, _⟩ => ⟨S64x1, .f32⟩
  | .hbm, ⟨85, _⟩ => ⟨S64x1, .f32⟩
  | .hbm, ⟨86, _⟩ => ⟨S64x64, .f32⟩
  | .hbm, ⟨87, _⟩ => ⟨S64x64, .f32⟩
  | .hbm, ⟨88, _⟩ => ⟨S64x2, .f32⟩
  | .hbm, ⟨89, _⟩ => ⟨S1x2, .f32⟩
  | .hbm, ⟨90, _⟩ => ⟨S64x2, .f32⟩
  | .hbm, ⟨91, _⟩ => ⟨S64x2, .f32⟩
  | .local _ .vmem, ⟨0, _⟩ => ⟨S6400x64, .f32⟩
  | .local _ .vmem, ⟨1, _⟩ => ⟨S6400x64, .f32⟩
  | .local _ .vmem, ⟨2, _⟩ => ⟨S6400x16, .f32⟩
  | .local _ .vmem, ⟨3, _⟩ => ⟨S6400x16, .f32⟩
  | .local _ .vmem, ⟨4, _⟩ => ⟨S16x64, .f32⟩
  | .local _ .vmem, ⟨5, _⟩ => ⟨S1x64, .f32⟩
  | .local _ .vmem, ⟨6, _⟩ => ⟨S6400x64, .f32⟩
  | .local _ .vmem, ⟨7, _⟩ => ⟨S6400x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S6400x64, .f32⟩
  | .local _ .vmem, ⟨17, _⟩ => ⟨S6400x64, .f32⟩
  | .local _ .vmem, ⟨18, _⟩ => ⟨S6400x16, .f32⟩
  | .local _ .vmem, ⟨19, _⟩ => ⟨S6400x16, .f32⟩
  | .local _ .vmem, ⟨20, _⟩ => ⟨S16x64, .f32⟩
  | .local _ .vmem, ⟨21, _⟩ => ⟨S1x64, .f32⟩
  | .local _ .vmem, ⟨22, _⟩ => ⟨S6400x64, .f32⟩
  | .local _ .vmem, ⟨23, _⟩ => ⟨S6400x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S64x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S6400x64, .f32⟩
  | .local _ .vmem, ⟨33, _⟩ => ⟨S6400x64, .f32⟩
  | .local _ .vmem, ⟨34, _⟩ => ⟨S6400x16, .f32⟩
  | .local _ .vmem, ⟨35, _⟩ => ⟨S6400x16, .f32⟩
  | .local _ .vmem, ⟨36, _⟩ => ⟨S16x64, .f32⟩
  | .local _ .vmem, ⟨37, _⟩ => ⟨S1x64, .f32⟩
  | .local _ .vmem, ⟨38, _⟩ => ⟨S6400x64, .f32⟩
  | .local _ .vmem, ⟨39, _⟩ => ⟨S6400x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S64x64, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_1 : Ref sig .tc := ⟨.hbm, 39, rfl⟩
abbrev main_v18 : Ref sig .tc := ⟨.hbm, 40, rfl⟩
abbrev main_v19 : Ref sig .tc := ⟨.hbm, 41, rfl⟩
abbrev main_c_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_4 : Ref sig .tc := ⟨.hbm, 56, rfl⟩
abbrev main_v32 : Ref sig .tc := ⟨.hbm, 57, rfl⟩
abbrev main_v33 : Ref sig .tc := ⟨.hbm, 58, rfl⟩
abbrev main_c_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_6 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_7 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_8 : Ref sig .tc := ⟨.hbm, 77, rfl⟩
abbrev main_v49 : Ref sig .tc := ⟨.hbm, 78, rfl⟩
abbrev main_cst_9 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem4_0 : DmaSem sig := 46
abbrev cc5_sem4_1 : DmaSem sig := 47

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S6400x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6400x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S6400x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![250], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6400x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S6400x16 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S16x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S6400x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S64_S1x64 : S64.ShapeCasts S1x64
  inb_S6400x16_S6400x16_0_0 : ∀ a, (![0, 0] : Fin 2 → Nat) a + S6400x16.size a ≤ S6400x16.size a
  h_S6400x16 : 0 < S6400x16.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  broadcasts_S1x64_S5000x64 : S1x64.Broadcasts S5000x64
  bcast_S_S64x64 : S_.BroadcastsInDim S64x64 (![] : Fin 0 → Fin S64x64.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S64x1 : S_.BroadcastsInDim S64x1 (![] : Fin 0 → Fin S64x1.rank)
  bcast_S64x1_S64x64_0_1 : S64x1.BroadcastsInDim S64x64 (![0, 1] : Fin 2 → Fin S64x64.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  gather_S100000x64_S1600000x1_S1600000x64_1_0_n_n_0_1_164_wf : GatherDims.WF S100000x64 S1600000x1 S1600000x64 [1] [0] [] [0] [] 1 ![1, 64]
  dot_S6400x16_S16x64_S6400x64_1_0_0_1_n_n_wf : DotDims.WF S6400x16 S16x64 S6400x64 [1] [0] [0] [1] [] []
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  scatter_S64x64_S100000x1_S100000x64_1_0_0_1_wf : ScatterDims.WF S64x64 S100000x1 S100000x64 [1] [0] [0] 1
  scatter_S64x1_S100000x1_S100000x1_1_0_0_1_wf : ScatterDims.WF S64x1 S100000x1 S100000x1 [1] [0] [0] 1
  dot_S64x64_S64x2_S64x2_1_0_0_1_n_n_wf : DotDims.WF S64x64 S64x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S1600000x64.size a
  hwx0_0 : ∀ i : grid0.Coords, EltTy.bits .f32 = 32 ∨ (Rect.block (s := S1600000x64) S6400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x16.size a ≤ S1600000x16.size a
  hwx0_1 : ∀ i : grid0.Coords, EltTy.bits .f32 = 32 ∨ (Rect.block (s := S1600000x16) S6400x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x64.size a ≤ S16x64.size a
  hwx0_2 : ∀ i : grid0.Coords, EltTy.bits .f32 = 32 ∨ (Rect.block (s := S16x64) S16x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6400x64.size a ≤ S1600000x64.size a
  hwx0_4 : ∀ i : grid0.Coords, EltTy.bits .f32 = 32 ∨ (Rect.block (s := S1600000x64) S6400x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x64.size a ≤ S1600000x64.size a
  hwx2_0 : ∀ i : grid2.Coords, EltTy.bits .f32 = 32 ∨ (Rect.block (s := S1600000x64) S6400x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6400x16.size a ≤ S1600000x16.size a
  hwx2_1 : ∀ i : grid2.Coords, EltTy.bits .f32 = 32 ∨ (Rect.block (s := S1600000x16) S6400x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x64.size a ≤ S16x64.size a
  hwx2_2 : ∀ i : grid2.Coords, EltTy.bits .f32 = 32 ∨ (Rect.block (s := S16x64) S16x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S6400x64.size a ≤ S1600000x64.size a
  hwx2_4 : ∀ i : grid2.Coords, EltTy.bits .f32 = 32 ∨ (Rect.block (s := S1600000x64) S6400x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6400x64.size a ≤ S1600000x64.size a
  hwx4_0 : ∀ i : grid4.Coords, EltTy.bits .f32 = 32 ∨ (Rect.block (s := S1600000x64) S6400x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6400x16.size a ≤ S1600000x16.size a
  hwx4_1 : ∀ i : grid4.Coords, EltTy.bits .f32 = 32 ∨ (Rect.block (s := S1600000x16) S6400x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S16x64.size a ≤ S16x64.size a
  hwx4_2 : ∀ i : grid4.Coords, EltTy.bits .f32 = 32 ∨ (Rect.block (s := S16x64) S16x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S6400x64.size a ≤ S1600000x64.size a
  hwx4_4 : ∀ i : grid4.Coords, EltTy.bits .f32 = 32 ∨ (Rect.block (s := S1600000x64) S6400x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S100000x64.size a
  hwx5_4 : ∀ i : grid5.Coords, EltTy.bits .f32 = 32 ∨ (Rect.block (s := S100000x64) S5000x64.size (cc5_transform_4 i) (hinb5_4 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S6400x16_S16x64_S6400x64_1_0_0_1_n_n : DotDims S6400x16 S16x64 S6400x64 where
  lhsContracting := [1]
  rhsContracting := [0]
  lhsNonContracting := [0]
  rhsNonContracting := [1]
  lhsBatch := []
  rhsBatch := []
  wf := dot_S6400x16_S16x64_S6400x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64x1_S100000x1_S100000x1_1_0_0_1 : ScatterDims S64x1 S100000x1 S100000x1 where
  updateWindowDims := [1]
  insertedWindowDims := [0]
  scatterDimsToOperandDims := [0]
  indexVectorDim := 1
  wf := scatter_S64x1_S100000x1_S100000x1_1_0_0_1_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

abbrev win0_0 : Pipeline.Window sig grid0 :=
  Pipeline.Window.ofSpec (Memref.whole main_v10) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6400x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S16x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S6400x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v24) S6400x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S6400x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S16x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v26) S6400x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v17) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v30) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v31) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v38) S6400x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg2) S6400x16.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S16x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v39) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v40) S6400x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v31) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v43) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg14) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v44) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v45) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x16 : Shape := ⟨2, ![1600000, 16]⟩
abbrev S100000 : Shape := ⟨1, ![100000]⟩
abbrev S16x64 : Shape := ⟨2, ![16, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x1 : Shape := ⟨2, ![100000, 1]⟩
abbrev S64x1 : Shape := ⟨2, ![64, 1]⟩
abbrev S1x2 : Shape := ⟨2, ![1, 2]⟩

abbrev nBuf : Space → Nat
  | .hbm => 137
  | .vmem => 0
  | .smem => 0
  | _ => 0

abbrev hbmTy0_0 (i : Nat) : BufTy := match i % 128 with
  | 0 => ⟨S100000x64, .f32⟩
  | 1 => ⟨S2x1600000, .i32⟩
  | 2 => ⟨S1600000x16, .f32⟩
  | 3 => ⟨S100000, .i32⟩
  | 4 => ⟨S16x64, .f32⟩
  | 5 => ⟨S64, .f32⟩
  | 6 => ⟨S64x64, .f32⟩
  | 7 => ⟨S64, .f32⟩
  | 8 => ⟨S16x64, .f32⟩
  | 9 => ⟨S64, .f32⟩
  | 10 => ⟨S64x64, .f32⟩
  | 11 => ⟨S64, .f32⟩
  | 12 => ⟨S16x64, .f32⟩
  | 13 => ⟨S64, .f32⟩
  | 14 => ⟨S64x64, .f32⟩
  | 15 => ⟨S64, .f32⟩
  | 16 => ⟨S64x2, .f32⟩
  | 17 => ⟨S2, .f32⟩
  | 18 => ⟨S1x1600000, .i32⟩
  | 19 => ⟨S1600000, .i32⟩
  | 20 => ⟨S1x1600000, .i32⟩
  | 21 => ⟨S1600000, .i32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x64, .f32⟩
  | 31 => ⟨S1600000x64, .f32⟩
  | 32 => ⟨S1600000x64, .f32⟩
  | 33 => ⟨S1x64, .f32⟩
  | 34 => ⟨S1600000x64, .f32⟩
  | 35 => ⟨S1600000x64, .f32⟩
  | 36 => ⟨S_, .f32⟩
  | 37 => ⟨S1600000x64, .f32⟩
  | 38 => ⟨S1600000x64, .f32⟩
  | 39 => ⟨S_, .f32⟩
  | 40 => ⟨S100000x64, .f32⟩
  | 41 => ⟨S1600000x1, .i32⟩
  | 42 => ⟨S100000x64, .f32⟩
  | 43 => ⟨S_, .f32⟩
  | 44 => ⟨S100000x64, .f32⟩
  | 45 => ⟨S100000x64, .f32⟩
  | 46 => ⟨S100000x64, .f32⟩
  | 47 => ⟨S100000x64, .f32⟩
  | 48 => ⟨S1x64, .f32⟩
  | 49 => ⟨S100000x64, .f32⟩
  | 50 => ⟨S100000x64, .f32⟩
  | 51 => ⟨S_, .f32⟩
  | 52 => ⟨S100000x64, .f32⟩
  | 53 => ⟨S100000x64, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x64, .f32⟩
  | 63 => ⟨S1600000x64, .f32⟩
  | 64 => ⟨S1600000x64, .f32⟩
  | 65 => ⟨S1x64, .f32⟩
  | 66 => ⟨S1600000x64, .f32⟩
  | 67 => ⟨S1600000x64, .f32⟩
  | 68 => ⟨S_, .f32⟩
  | 69 => ⟨S1600000x64, .f32⟩
  | 70 => ⟨S1600000x64, .f32⟩
  | 71 => ⟨S_, .f32⟩
  | 72 => ⟨S100000x64, .f32⟩
  | 73 => ⟨S1600000x1, .i32⟩
  | 74 => ⟨S100000x64, .f32⟩
  | 75 => ⟨S_, .f32⟩
  | 76 => ⟨S100000x64, .f32⟩
  | 77 => ⟨S100000x64, .f32⟩
  | 78 => ⟨S100000x64, .f32⟩
  | 79 => ⟨S100000x64, .f32⟩
  | 80 => ⟨S1x64, .f32⟩
  | 81 => ⟨S100000x64, .f32⟩
  | 82 => ⟨S100000x64, .f32⟩
  | 83 => ⟨S_, .f32⟩
  | 84 => ⟨S100000x64, .f32⟩
  | 85 => ⟨S100000x64, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000x64, .f32⟩
  | 95 => ⟨S1600000x64, .f32⟩
  | 96 => ⟨S1600000x64, .f32⟩
  | 97 => ⟨S1x64, .f32⟩
  | 98 => ⟨S1600000x64, .f32⟩
  | 99 => ⟨S1600000x64, .f32⟩
  | 100 => ⟨S_, .f32⟩
  | 101 => ⟨S1600000x64, .f32⟩
  | 102 => ⟨S1600000x64, .f32⟩
  | 103 => ⟨S_, .f32⟩
  | 104 => ⟨S100000x64, .f32⟩
  | 105 => ⟨S1600000x1, .i32⟩
  | 106 => ⟨S100000x64, .f32⟩
  | 107 => ⟨S_, .f32⟩
  | 108 => ⟨S100000x64, .f32⟩
  | 109 => ⟨S100000x64, .f32⟩
  | 110 => ⟨S100000x64, .f32⟩
  | 111 => ⟨S100000x64, .f32⟩
  | 112 => ⟨S1x64, .f32⟩
  | 113 => ⟨S100000x64, .f32⟩
  | 114 => ⟨S100000x64, .f32⟩
  | 115 => ⟨S_, .f32⟩
  | 116 => ⟨S100000x64, .f32⟩
  | 117 => ⟨S100000x64, .f32⟩
  | 118 => ⟨S_, .f32⟩
  | 119 => ⟨S64x64, .f32⟩
  | 120 => ⟨S100000x1, .i32⟩
  | 121 => ⟨S64x64, .f32⟩
  | 122 => ⟨S_, .f32⟩
  | 123 => ⟨S100000x1, .f32⟩
  | 124 => ⟨S_, .f32⟩
  | 125 => ⟨S64x1, .f32⟩
  | 126 => ⟨S100000x1, .i32⟩
  | 127 => ⟨S64x1, .f32⟩
  | _ => ⟨S100000x64, .f32⟩

abbrev hbmTy0_1 (i : Nat) : BufTy := match i % 128 with
  | 0 => ⟨S_, .f32⟩
  | 1 => ⟨S64x1, .f32⟩
  | 2 => ⟨S64x1, .f32⟩
  | 3 => ⟨S64x64, .f32⟩
  | 4 => ⟨S64x64, .f32⟩
  | 5 => ⟨S64x2, .f32⟩
  | 6 => ⟨S1x2, .f32⟩
  | 7 => ⟨S64x2, .f32⟩
  | 8 => ⟨S64x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_call0_cst : Ref sig .tc := ⟨.hbm, 36, rfl⟩
abbrev main_call0_v0 : Ref sig .tc := ⟨.hbm, 37, rfl⟩
abbrev main_v16 : Ref sig .tc := ⟨.hbm, 38, rfl⟩
abbrev main_cst : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_1 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_call1_cst : Ref sig .tc := ⟨.hbm, 51, rfl⟩
abbrev main_call1_v0 : Ref sig .tc := ⟨.hbm, 52, rfl⟩
abbrev main_v27 : Ref sig .tc := ⟨.hbm, 53, rfl⟩
abbrev main_c_2 : Ref sig .tc := ⟨.hbm, 54, rfl⟩
abbrev main_v28 : Ref sig .tc := ⟨.hbm, 55, rfl⟩
abbrev main_v29 : Ref sig .tc := ⟨.hbm, 56, rfl⟩
abbrev main_c_3 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_call2_cst : Ref sig .tc := ⟨.hbm, 68, rfl⟩
abbrev main_call2_v0 : Ref sig .tc := ⟨.hbm, 69, rfl⟩
abbrev main_v40 : Ref sig .tc := ⟨.hbm, 70, rfl⟩
abbrev main_cst_4 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_5 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_call3_cst : Ref sig .tc := ⟨.hbm, 83, rfl⟩
abbrev main_call3_v0 : Ref sig .tc := ⟨.hbm, 84, rfl⟩
abbrev main_v51 : Ref sig .tc := ⟨.hbm, 85, rfl⟩
abbrev main_c_6 : Ref sig .tc := ⟨.hbm, 86, rfl⟩
abbrev main_v52 : Ref sig .tc := ⟨.hbm, 87, rfl⟩
abbrev main_v53 : Ref sig .tc := ⟨.hbm, 88, rfl⟩
abbrev main_c_7 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_call4_cst : Ref sig .tc := ⟨.hbm, 100, rfl⟩
abbrev main_call4_v0 : Ref sig .tc := ⟨.hbm, 101, rfl⟩
abbrev main_v64 : Ref sig .tc := ⟨.hbm, 102, rfl⟩
abbrev main_cst_8 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_9 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_call5_cst : Ref sig .tc := ⟨.hbm, 115, rfl⟩
abbrev main_call5_v0 : Ref sig .tc := ⟨.hbm, 116, rfl⟩
abbrev main_v75 : Ref sig .tc := ⟨.hbm, 117, rfl⟩
abbrev main_cst_10 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_cst_11 : Ref sig .tc := ⟨.hbm, 122, rfl⟩
abbrev main_v79 : Ref sig .tc := ⟨.hbm, 123, rfl⟩
abbrev main_cst_12 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_13 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S64x1 : S_.BroadcastsInDim S64x1 (![] : Fin 0 → Fin S64x1.rank)
  bcast_S64x1_S64x64_0_1 : S64x1.BroadcastsInDim S64x64 (![0, 1] : Fin 2 → Fin S64x64.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  gather_S100000x64_S1600000x1_S1600000x64_1_0_n_n_0_1_164_wf : GatherDims.WF S100000x64 S1600000x1 S1600000x64 [1] [0] [] [0] [] 1 ![1, 64]
  dot_S1600000x16_S16x64_S1600000x64_1_0_0_1_n_n_wf : DotDims.WF S1600000x16 S16x64 S1600000x64 [1] [0] [0] [1] [] []
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S64x64_S100000x1_S100000x64_1_0_0_1_wf : ScatterDims.WF S64x64 S100000x1 S100000x64 [1] [0] [0] 1
  scatter_S64x1_S100000x1_S100000x1_1_0_0_1_wf : ScatterDims.WF S64x1 S100000x1 S100000x1 [1] [0] [0] 1
  dot_S64x64_S64x2_S64x2_1_0_0_1_n_n_wf : DotDims.WF S64x64 S64x2 S64x2 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x16_S16x64_S1600000x64_1_0_0_1_n_n : DotDims S1600000x16 S16x64 S1600000x64 where
  lhsContracting := [1]
  rhsContracting := [0]
  lhsNonContracting := [0]
  rhsNonContracting := [1]
  lhsBatch := []
  rhsBatch := []
  wf := dot_S1600000x16_S16x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64x1_S100000x1_S100000x1_1_0_0_1 : ScatterDims S64x1 S100000x1 S100000x1 where
  updateWindowDims := [1]
  insertedWindowDims := [0]
  scatterDimsToOperandDims := [0]
  indexVectorDim := 1
  wf := scatter_S64x1_S100000x1_S100000x1_1_0_0_1_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

class Facts : Prop extends Facts₀ where

variable [Facts]
-- ==== Proof.KernelRun.lean ====
/-
  The idealized kernel program's run with its RESULT named. The program is thirteen segments: seven stretches of host
  operations and, between them, the six kernel regions. Buffer contents are followed from the launch memory through
  every segment boundary (the fold W0 … W13 of the frame module): a host stretch leaves what its operations compute,
  a region leaves its arrays at what its write-backs fold to and every other buffer as entered. Every weakly fair
  execution ends with every buffer at the last boundary's contents W13, so the result buffer ends at W13's value
  for it and the eighteen argument arrays end as launched.
-/
import proofs.«179752_j27565100106143_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the argument arrays as launched. -/
theorem run : θ_run defs (onTc (τ := τ) (main (F := F))) ⟨m, fun _ => 0, ρ⟩ (fun r => ∀ c : Dev nD,
      r.2.mem ((c.tc : Thread nD τ).loc main_v60) = W13 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v60 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c),
       (h c _ (mem_uc main_arg16 (by decide))).trans (W13_main_arg16 m ρ c),
       (h c _ (mem_uc main_arg17 (by decide))).trans (W13_main_arg17 m ρ c)⟩)

end Cert.KernelIdeal.RunValue

end
-- ==== Proof.Stages.lean ====
/-
  One layer of the network is two dense stages around a gather and a scatter-add:

    message(xs, ea, We, be)(e, q) = max( (xs(e, q) + Σ_k ea(e, k) · We(k, q)) + be(q), 0 )          over the edges e
    update(h, agg, W, b)(n, q)    = max( Σ_k (1 · h(n, k) + agg(n, k)) · W(k, q) + b(q), 0 )        over the nodes n

  Each stage is stated here ONCE as a function of whole arrays, in the reference program's own operations, with the
  bias already laid out as a one-row matrix; each is then read at an index (e, q) as the formula above, the matrix
  product as a sum over the contracted coordinate. Nothing here needs the entries to be finite: the reading uses only
  that a one-row matrix broadcast down the rows is that row, and that the word 0x3F800000 is the number one.
-/
import proofs.«179752_j27565100106143_1_alg».proof.Proof.Gen.ReferenceIdeal.Read
import Idealize.ShloMosaic.Lib.ValueIdx
import Idealize.ShloMosaic.Lib.KernelVsHost
import Idealize.ShloMosaic.Lib.IdealHost

noncomputable section

namespace Cert.Stages

open Cert.ReferenceIdeal Cert.ReferenceIdeal.Gen Cert.ReferenceIdeal.Read
open Idealize.ShloMosaic Idealize.ShloMosaic.ValueIdx
open scoped BigOperators

variable {F : FTy → Type} [FloatOps F]

/-- Entry (p, q) of a matrix product: row p of the left factor against column q of the right one, summed over the
    contracted coordinate. -/
def rowDot {M K N : ℕ} (l : (⟨2, ![M, K]⟩ : Shape).Idx → EReal) (r : (⟨2, ![K, N]⟩ : Shape).Idx → EReal)
    (p : Fin M) (q : Fin N) : EReal :=
  ∑ k : Fin K, l (ix2 p k) * r (ix2 k q)

/-- Entry (p, q) of the product of the SUM of two matrices with a third: row p of each summand, added entry by entry,
    against column q of the right factor. -/
def rowDotAdd {M K N : ℕ} (a b : (⟨2, ![M, K]⟩ : Shape).Idx → EReal) (r : (⟨2, ![K, N]⟩ : Shape).Idx → EReal)
    (p : Fin M) (q : Fin N) : EReal :=
  ∑ k : Fin K, (a (ix2 p k) + b (ix2 p k)) * r (ix2 k q)

/-- The sum only looks at row p of the left factor: two left factors that agree on it give the same entry. -/
theorem rowDot_congr {M M' K N : ℕ} (l : (⟨2, ![M, K]⟩ : Shape).Idx → EReal) (l' : (⟨2, ![M', K]⟩ : Shape).Idx → EReal)
    (r : (⟨2, ![K, N]⟩ : Shape).Idx → EReal) (p : Fin M) (p' : Fin M') (q : Fin N)
    (h : ∀ k : Fin K, l (ix2 p k) = l' (ix2 p' k)) : rowDot l r p q = rowDot l' r p' q :=
  Finset.sum_congr rfl fun k _ => by rw [h k]

/-! ## The message stage -/

/-- The messages of all edges: the gathered source rows plus the projected edge attributes plus the bias row, clipped
    below at zero. -/
def edgeHost (xs : (⟨S1600000x64, .f32⟩ : BufTy).Contents (Elt F)) (ea : (⟨S1600000x16, .f32⟩ : BufTy).Contents (Elt F))
    (We : (⟨S16x64, .f32⟩ : BufTy).Contents (Elt F)) (be1 : (⟨S1x64, .f32⟩ : BufTy).Contents (Elt F)) :
    (⟨S1600000x64, .f32⟩ : BufTy).Contents (Elt F) :=
  maximumf (addf (addf xs (val_main_v11 (F := F) ea We)) (broadcastInDim S1600000x64 ![0, 1] bcast_S1x64_S1600000x64_0_1 be1))
    (val_main_call0_v0 (F := F))

theorem lidx_v11_ix2 (e : Fin 1600000) (q : Fin 64) (k : Fin 16) : lidx_main_v11 (ix2 e q) k = ix2 e k :=
  funext fun a => match a with | ⟨0, _⟩ => rfl | ⟨1, _⟩ => rfl
theorem ridx_v11_ix2 (e : Fin 1600000) (q : Fin 64) (k : Fin 16) : ridx_main_v11 (ix2 e q) k = ix2 k q :=
  funext fun a => match a with | ⟨0, _⟩ => rfl | ⟨1, _⟩ => rfl

/-- The message of edge e in channel q. -/
theorem edgeHost_apply (xs : FVec Ideal S1600000x64 .f32) (ea : FVec Ideal S1600000x16 .f32)
    (We : FVec Ideal S16x64 .f32) (be1 : FVec Ideal S1x64 .f32)
    (e : Fin 1600000) (q : Fin 64) :
    edgeHost (F := Ideal) xs ea We be1 (ix2 e q)
      = max ((xs (ix2 e q) + rowDot ea We e q) + be1 (ix2 (0 : Fin 1) q)) (Ideal.ofBits .f32 0x00000000#32) := by
  unfold edgeHost
  show max ((xs (ix2 e q) + val_main_v11 (F := Ideal) ea We (ix2 e q))
      + broadcastInDim S1600000x64 ![0, 1] bcast_S1x64_S1600000x64_0_1 be1 (ix2 e q)) (val_main_call0_v0 (F := Ideal) (ix2 e q)) = _
  rw [val_main_v11_apply, broadcastInDim_oneRow_apply, val_main_call0_v0_apply, val_main_call0_cst_apply]
  simp only [lidx_v11_ix2, ridx_v11_ix2]
  rfl

/-! ## The update stage -/

/-- The updated features of all nodes: the old features (times the constant one) plus the aggregated messages, through
    the dense layer, plus the bias row, clipped below at zero. -/
def nodeHost (h agg : (⟨S100000x64, .f32⟩ : BufTy).Contents (Elt F)) (W : (⟨S64x64, .f32⟩ : BufTy).Contents (Elt F))
    (b1 : (⟨S1x64, .f32⟩ : BufTy).Contents (Elt F)) : (⟨S100000x64, .f32⟩ : BufTy).Contents (Elt F) :=
  maximumf (addf (Host.dotGeneral dot_S100000x64_S64x64_S100000x64_1_0_0_1_n_n none (addf (mulf (val_main_v20 (F := F)) h) agg) W)
      (broadcastInDim S100000x64 ![0, 1] bcast_S1x64_S100000x64_0_1 b1))
    (val_main_call1_v0 (F := F))

/-- The node stage's matrix product at (n, q), over any left operand: row n of it against column q of the weights,
    summed over the one contracted coordinate. -/
theorem nodeDot_apply (y : FVec Ideal S100000x64 .f32) (W : FVec Ideal S64x64 .f32)
    (n : Fin 100000) (q : Fin 64) :
    Host.dotGeneral (F := Ideal) dot_S100000x64_S64x64_S100000x64_1_0_0_1_n_n none y W (ix2 n q) = rowDot y W n q := by
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx (ix2 n q) ((ValueIdx.contrEquiv1 dot_S100000x64_S64x64_S100000x64_1_0_0_1_n_n 64 rfl rfl).symm k) = ix2 n k := funext fun a => Fin.ext (by
    match a with
    | ⟨0, _⟩ => exact lhs_main_v23_0 _ _
    | ⟨1, _⟩ => exact (lhs_main_v23_1 _ _).trans hk)
  have er : dot_S100000x64_S64x64_S100000x64_1_0_0_1_n_n.rhsIdx (ix2 n q) ((ValueIdx.contrEquiv1 dot_S100000x64_S64x64_S100000x64_1_0_0_1_n_n 64 rfl rfl).symm k) = ix2 k q := funext fun a => Fin.ext (by
    match a with
    | ⟨0, _⟩ => exact (rhs_main_v23_0 _ _).trans hk
    | ⟨1, _⟩ => exact rhs_main_v23_1 _ _)
  rw [el, er]

/-- The features a node's update multiplies by one are the features. -/
theorem one_mulf_apply (h : FVec Ideal S100000x64 .f32) (i : S100000x64.Idx) :
    mulf (F := Ideal) (val_main_v20 (F := Ideal)) h i = h i := by
  show val_main_v20 (F := Ideal) i * h i = h i
  rw [val_main_v20_apply, val_main_cst_1_apply]
  show Ideal.ofBits .f32 0x3F800000#32 * h i = h i
  rw [Ideal.ofBits_one_f32, one_mul]

/-- The updated feature q of node n. -/
theorem nodeHost_apply (h agg : FVec Ideal S100000x64 .f32) (W : FVec Ideal S64x64 .f32)
    (b1 : FVec Ideal S1x64 .f32) (n : Fin 100000) (q : Fin 64) :
    nodeHost (F := Ideal) h agg W b1 (ix2 n q)
      = max (rowDotAdd h agg W n q + b1 (ix2 (0 : Fin 1) q)) (Ideal.ofBits .f32 0x00000000#32) := by
  unfold nodeHost
  show max (Host.dotGeneral (F := Ideal) dot_S100000x64_S64x64_S100000x64_1_0_0_1_n_n none (addf (mulf (val_main_v20 (F := Ideal)) h) agg) W (ix2 n q)
      + broadcastInDim S100000x64 ![0, 1] bcast_S1x64_S100000x64_0_1 b1 (ix2 n q)) (val_main_call1_v0 (F := Ideal) (ix2 n q)) = _
  rw [nodeDot_apply, broadcastInDim_oneRow_apply, val_main_call1_v0_apply, val_main_call1_cst_apply]
  have e : (addf (F := Ideal) (mulf (val_main_v20 (F := Ideal)) h) agg : FVec Ideal S100000x64 .f32) = fun i => h i + agg i :=
    funext fun i => by show mulf (F := Ideal) (val_main_v20 (F := Ideal)) h i + agg i = _; rw [one_mulf_apply]
  rw [e]
  rfl

/-! ## The reference's layers are these stages, composed with its gathers and scatter-adds -/

theorem v16_stage (x0 x1 x2 x4 x5) :
    val_main_v16 (F := F) x0 x1 x2 x4 x5 = edgeHost (val_main_v10 (F := F) x0 x1) x2 x4 (val_main_v13 (F := F) x5) := rfl
theorem v27_stage (x0 x1 x2 x4 x5 x6 x7) :
    val_main_v27 (F := F) x0 x1 x2 x4 x5 x6 x7 = nodeHost x0 (val_main_v19 (F := F) x0 x1 x2 x4 x5) x6 (val_main_v24 (F := F) x7) := rfl
theorem v40_stage (x0 x1 x2 x4 x5 x6 x7 x8 x9) :
    val_main_v40 (F := F) x0 x1 x2 x4 x5 x6 x7 x8 x9
      = edgeHost (val_main_v34 (F := F) x0 x1 x2 x4 x5 x6 x7) x2 x8 (val_main_v37 (F := F) x9) := rfl
theorem v51_stage (x0 x1 x2 x4 x5 x6 x7 x8 x9 x10 x11) :
    val_main_v51 (F := F) x0 x1 x2 x4 x5 x6 x7 x8 x9 x10 x11
      = nodeHost (val_main_v27 (F := F) x0 x1 x2 x4 x5 x6 x7) (val_main_v43 (F := F) x0 x1 x2 x4 x5 x6 x7 x8 x9) x10 (val_main_v48 (F := F) x11) := rfl
theorem v64_stage (x0 x1 x2 x4 x5 x6 x7 x8 x9 x10 x11 x12 x13) :
    val_main_v64 (F := F) x0 x1 x2 x4 x5 x6 x7 x8 x9 x10 x11 x12 x13
      = edgeHost (val_main_v58 (F := F) x0 x1 x2 x4 x5 x6 x7 x8 x9 x10 x11) x2 x12 (val_main_v61 (F := F) x13) := rfl
theorem v75_stage (x0 x1 x2 x4 x5 x6 x7 x8 x9 x10 x11 x12 x13 x14 x15) :
    val_main_v75 (F := F) x0 x1 x2 x4 x5 x6 x7 x8 x9 x10 x11 x12 x13 x14 x15
      = nodeHost (val_main_v51 (F := F) x0 x1 x2 x4 x5 x6 x7 x8 x9 x10 x11) (val_main_v67 (F := F) x0 x1 x2 x4 x5 x6 x7 x8 x9 x10 x11 x12 x13) x14 (val_main_v72 (F := F) x15) := rfl

end Cert.Stages

end
-- ==== Proof.LibRowCast.lean ====
/-
  A vector of n entries written as a one-row matrix, two ways: reshaping [n] to [1, n] keeps the entries in row-major
  order, so entry (0, t) is entry t; broadcasting the vector along axis 1 of [1, n] puts entry t at every (r, t), and
  there is only the row r = 0. The two one-row matrices are therefore equal, for every n and any entries.
-/
import Idealize.ShloMosaic.Lib.Pipeline.Value
import Idealize.ShloMosaic.Lib.ValueIdx

namespace Cert.LibRowCast

open Idealize.ShloMosaic Idealize.ShloMosaic.ValueIdx

/-- The reshape of a vector of n entries to a [1, n] matrix is its broadcast along axis 1 of that shape. -/
theorem shapeCast_row_eq_broadcastInDim {α : Type} {n : ℕ} (x : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ x h1 = broadcastInDim ⟨2, ![1, n]⟩ ![1] hd x := by
  funext i
  have h0 : (i 0).val = 0 := by have h : (i 0).val < 1 := (i 0).isLt; omega
  have e2 := shapeCast_apply x h1 i (ix1 (i 1 : Fin n)) (by
    rw [Shape.rowMajor_val_two, Shape.rowMajor_val_one]
    show (i 1).val = (i 0).val * n + (i 1).val
    rw [h0]; omega)
  have e3 := broadcastInDim_apply ![1] hd x i (ix1 (i 1 : Fin n)) (by
    intro a
    match a with
    | ⟨0, _⟩ =>
      show (i 1).val = if n = 1 then 0 else (i 1).val
      split
      · have := (i 1).isLt; have e : (i 1).val < n := this; omega
      · rfl)
  exact e2.trans e3.symm

end Cert.LibRowCast
-- ==== Proof.KernelPay.lean ====
/-
  What each kernel body stores, read at an index (p, q) of its block, at the ideal values: the narrowing to bf16 is the
  identity, a shape cast to the same shape is the identity, the bias row broadcast down the block is that row, and the
  block's matrix product into the zero accumulator is the sum over the contracted coordinate. So a message block's
  entry is max((x(p,q) + Σ_k a(p,k)·w(k,q)) + b(q), 0) and an update block's is max(Σ_k (h(p,k) + g(p,k))·w(k,q) + b(q), 0),
  the same formulas the whole-array stages have at the block's row.
-/
import proofs.«179752_j27565100106143_1_alg».proof.Proof.Gen.KernelIdeal.Skeleton
import proofs.«179752_j27565100106143_1_alg».proof.Proof.Stages
import Idealize.ShloMosaic.Lib.ValueIdx
import Idealize.ShloMosaic.Lib.ValueLayout
import Idealize.ShloMosaic.Lib.Pipeline.Value
import Idealize.ShloMosaic.PureOps.Ideal.Laws

noncomputable section

namespace Cert.KernelPay

open Cert.KernelIdeal Cert.KernelIdeal.Gen Cert.Stages
open Idealize.ShloMosaic Idealize.ShloMosaic.ValueIdx
open scoped BigOperators

theorem blockDotE_lhs0 (i : S6400x64.Idx) (k : dot_S6400x16_S16x64_S6400x64_1_0_0_1_n_n.contr.Idx) : (dot_S6400x16_S16x64_S6400x64_1_0_0_1_n_n.lhsIdx i k 0).val = (i 0).val := by
  unfold DotDims.lhsIdx
  rw [dif_neg (show ¬(0 : Fin S6400x16.rank) ∈ dot_S6400x16_S16x64_S6400x64_1_0_0_1_n_n.lhsBatch by decide), dif_pos (show (0 : Fin S6400x16.rank) ∈ dot_S6400x16_S16x64_S6400x64_1_0_0_1_n_n.lhsNonContracting by decide)]
  rfl
theorem blockDotE_rhs1 (i : S6400x64.Idx) (k : dot_S6400x16_S16x64_S6400x64_1_0_0_1_n_n.contr.Idx) : (dot_S6400x16_S16x64_S6400x64_1_0_0_1_n_n.rhsIdx i k 1).val = (i 1).val := by
  unfold DotDims.rhsIdx
  rw [dif_neg (show ¬(1 : Fin S16x64.rank) ∈ dot_S6400x16_S16x64_S6400x64_1_0_0_1_n_n.rhsBatch by decide), dif_pos (show (1 : Fin S16x64.rank) ∈ dot_S6400x16_S16x64_S6400x64_1_0_0_1_n_n.rhsNonContracting by decide)]
  rfl

/-- One block's matrix product into the zero accumulator, at (p, q): row p of the left block against column q of the
    right one, summed over the one contracted coordinate (the zero accumulator adds nothing). -/
theorem blockDotE {φ₁ φ₂ : FTy} (l : FVec Ideal S6400x16 φ₁) (r : FVec Ideal S16x64 φ₂) (p : Fin 6400) (q : Fin 64) :
    matmul dot_S6400x16_S16x64_S6400x64_1_0_0_1_n_n none l r (constant S6400x64 .f32 0x00000000#32) (ix2 p q) = rowDot l r p q := by
  show FloatOps.matmul dot_S6400x16_S16x64_S6400x64_1_0_0_1_n_n none l r (constant S6400x64 .f32 0x00000000#32) (ix2 p q) = _
  rw [Ideal.matmul_constant_zero_apply, ← Equiv.sum_comp (ValueIdx.contrEquiv1 dot_S6400x16_S16x64_S6400x64_1_0_0_1_n_n 16 rfl rfl).symm]
  refine Finset.sum_congr rfl fun k _ => ?_
  have hk := ValueIdx.contrEquiv1_symm_val dot_S6400x16_S16x64_S6400x64_1_0_0_1_n_n 16 rfl rfl k
  have el : dot_S6400x16_S16x64_S6400x64_1_0_0_1_n_n.lhsIdx (ix2 p q) ((ValueIdx.contrEquiv1 dot_S6400x16_S16x64_S6400x64_1_0_0_1_n_n 16 rfl rfl).symm k) = ix2 p k := funext fun a => Fin.ext (by
    match a with
    | ⟨0, _⟩ => exact blockDotE_lhs0 _ _
    | ⟨1, _⟩ => exact (dot_S6400x16_S16x64_S6400x64_1_0_0_1_n_n.lhsIdx_val_of_single rfl _ _).trans hk)
  have er : dot_S6400x16_S16x64_S6400x64_1_0_0_1_n_n.rhsIdx (ix2 p q) ((ValueIdx.contrEquiv1 dot_S6400x16_S16x64_S6400x64_1_0_0_1_n_n 16 rfl rfl).symm k) = ix2 k q := funext fun a => Fin.ext (by
    match a with
    | ⟨0, _⟩ => exact (dot_S6400x16_S16x64_S6400x64_1_0_0_1_n_n.rhsIdx_val_of_single rfl _ _).trans hk
    | ⟨1, _⟩ => exact blockDotE_rhs1 _ _)
  rw [el, er]

theorem blockDotN_lhs0 (i : S5000x64.Idx) (k : dot_S5000x64_S64x64_S5000x64_1_0_0_1_n_n.contr.Idx) : (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem blockDotN_rhs1 (i : S5000x64.Idx) (k : dot_S5000x64_S64x64_S5000x64_1_0_0_1_n_n.contr.Idx) : (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- One block's matrix product into the zero accumulator, at (p, q): row p of the left block against column q of the
    right one, summed over the one contracted coordinate (the zero accumulator adds nothing). -/
theorem blockDotN {φ₁ φ₂ : FTy} (l : FVec Ideal S5000x64 φ₁) (r : FVec Ideal S64x64 φ₂) (p : Fin 5000) (q : Fin 64) :
    matmul dot_S5000x64_S64x64_S5000x64_1_0_0_1_n_n none l r (constant S5000x64 .f32 0x00000000#32) (ix2 p q) = rowDot l r p q := by
  show FloatOps.matmul dot_S5000x64_S64x64_S5000x64_1_0_0_1_n_n none l r (constant S5000x64 .f32 0x00000000#32) (ix2 p q) = _
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact blockDotN_lhs0 _ _
    | ⟨1, _⟩ => exact (dot_S5000x64_S64x64_S5000x64_1_0_0_1_n_n.lhsIdx_val_of_single rfl _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (dot_S5000x64_S64x64_S5000x64_1_0_0_1_n_n.rhsIdx_val_of_single rfl _ _).trans hk
    | ⟨1, _⟩ => exact blockDotN_rhs1 _ _)
  rw [el, er]

/-! ## The message bodies (regions 0, 2, 4) -/

/-- Region 0's store at (p, q) of its block: the message formula over the point's loaded blocks. -/
theorem pay0_apply (x0 : Vec Ideal S6400x16 .f32) (x2 : Vec Ideal S16x64 .f32) (x5 : Vec Ideal S6400x64 .f32) (x8 : Vec Ideal S1x64 .f32)
    (p : Fin 6400) (q : Fin 64) :
    k0_pay1 (F := Ideal) x0 x2 x5 x8 (ix2 p q)
      = max ((x5 (ix2 p q) + rowDot x0 x2 p q) + x8 (ix2 (0 : Fin 1) q)) (Ideal.ofBits .f32 0x00000000#32) := by
  unfold k0_pay1
  show max ((shapeCast S6400x64 x5 shapeCasts_S6400x64_S6400x64 (ix2 p q)
        + matmul (F := Ideal) dot_S6400x16_S16x64_S6400x64_1_0_0_1_n_n none (truncf .bf16 x0 bitsLt_bf16_f32) (truncf .bf16 x2 bitsLt_bf16_f32) (constant S6400x64 .f32 0x00000000#32) (ix2 p q))
      + broadcastTo S6400x64 (shapeCast S1x64 x8 shapeCasts_S1x64_S1x64) broadcasts_S1x64_S6400x64 (ix2 p q)) (Ideal.ofBits .f32 0x00000000#32) = _
  rw [shapeCast_self, shapeCast_self, broadcastTo_1b_ab_apply, blockDotE]
  rfl

/-- Region 2's store at (p, q) of its block: the message formula over the point's loaded blocks. -/
theorem pay2_apply (x0 : Vec Ideal S6400x16 .f32) (x2 : Vec Ideal S16x64 .f32) (x5 : Vec Ideal S6400x64 .f32) (x8 : Vec Ideal S1x64 .f32)
    (p : Fin 6400) (q : Fin 64) :
    k2_pay1 (F := Ideal) x0 x2 x5 x8 (ix2 p q)
      = max ((x5 (ix2 p q) + rowDot x0 x2 p q) + x8 (ix2 (0 : Fin 1) q)) (Ideal.ofBits .f32 0x00000000#32) := by
  unfold k2_pay1
  show max ((shapeCast S6400x64 x5 shapeCasts_S6400x64_S6400x64 (ix2 p q)
        + matmul (F := Ideal) dot_S6400x16_S16x64_S6400x64_1_0_0_1_n_n none (truncf .bf16 x0 bitsLt_bf16_f32) (truncf .bf16 x2 bitsLt_bf16_f32) (constant S6400x64 .f32 0x00000000#32) (ix2 p q))
      + broadcastTo S6400x64 (shapeCast S1x64 x8 shapeCasts_S1x64_S1x64) broadcasts_S1x64_S6400x64 (ix2 p q)) (Ideal.ofBits .f32 0x00000000#32) = _
  rw [shapeCast_self, shapeCast_self, broadcastTo_1b_ab_apply, blockDotE]
  rfl

/-- Region 4's store at (p, q) of its block: the message formula over the point's loaded blocks. -/
theorem pay4_apply (x0 : Vec Ideal S6400x16 .f32) (x2 : Vec Ideal S16x64 .f32) (x5 : Vec Ideal S6400x64 .f32) (x8 : Vec Ideal S1x64 .f32)
    (p : Fin 6400) (q : Fin 64) :
    k4_pay1 (F := Ideal) x0 x2 x5 x8 (ix2 p q)
      = max ((x5 (ix2 p q) + rowDot x0 x2 p q) + x8 (ix2 (0 : Fin 1) q)) (Ideal.ofBits .f32 0x00000000#32) := by
  unfold k4_pay1
  show max ((shapeCast S6400x64 x5 shapeCasts_S6400x64_S6400x64 (ix2 p q)
        + matmul (F := Ideal) dot_S6400x16_S16x64_S6400x64_1_0_0_1_n_n none (truncf .bf16 x0 bitsLt_bf16_f32) (truncf .bf16 x2 bitsLt_bf16_f32) (constant S6400x64 .f32 0x00000000#32) (ix2 p q))
      + broadcastTo S6400x64 (shapeCast S1x64 x8 shapeCasts_S1x64_S1x64) broadcasts_S1x64_S6400x64 (ix2 p q)) (Ideal.ofBits .f32 0x00000000#32) = _
  rw [shapeCast_self, shapeCast_self, broadcastTo_1b_ab_apply, blockDotE]
  rfl

/-! ## The update bodies (regions 1, 3, 5) -/

/-- Region 1's store at (p, q) of its block: the update formula over the point's loaded blocks. -/
theorem pay1_apply (x0 x1 : Vec Ideal S5000x64 .f32) (x5 : Vec Ideal S64x64 .f32) (x8 : Vec Ideal S1x64 .f32)
    (p : Fin 5000) (q : Fin 64) :
    k1_pay1 (F := Ideal) x0 x1 x5 x8 (ix2 p q)
      = max (rowDotAdd x0 x1 x5 p q + x8 (ix2 (0 : Fin 1) q)) (Ideal.ofBits .f32 0x00000000#32) := by
  unfold k1_pay1
  show max (matmul (F := Ideal) dot_S5000x64_S64x64_S5000x64_1_0_0_1_n_n none (truncf .bf16 (addf x0 (shapeCast S5000x64 x1 shapeCasts_S5000x64_S5000x64)) bitsLt_bf16_f32) (truncf .bf16 x5 bitsLt_bf16_f32) (constant S5000x64 .f32 0x00000000#32) (ix2 p q)
      + broadcastTo S5000x64 (shapeCast S1x64 x8 shapeCasts_S1x64_S1x64) broadcasts_S1x64_S5000x64 (ix2 p q)) (Ideal.ofBits .f32 0x00000000#32) = _
  rw [shapeCast_self, shapeCast_self, broadcastTo_1b_ab_apply, blockDotN]
  rfl

/-- Region 3's store at (p, q) of its block: the update formula over the point's loaded blocks. -/
theorem pay3_apply (x0 x2 : Vec Ideal S5000x64 .f32) (x6 : Vec Ideal S64x64 .f32) (x9 : Vec Ideal S1x64 .f32)
    (p : Fin 5000) (q : Fin 64) :
    k3_pay1 (F := Ideal) x0 x2 x6 x9 (ix2 p q)
      = max (rowDotAdd x0 x2 x6 p q + x9 (ix2 (0 : Fin 1) q)) (Ideal.ofBits .f32 0x00000000#32) := by
  unfold k3_pay1
  show max (matmul (F := Ideal) dot_S5000x64_S64x64_S5000x64_1_0_0_1_n_n none (truncf .bf16 (addf (shapeCast S5000x64 x0 shapeCasts_S5000x64_S5000x64) (shapeCast S5000x64 x2 shapeCasts_S5000x64_S5000x64)) bitsLt_bf16_f32) (truncf .bf16 x6 bitsLt_bf16_f32) (constant S5000x64 .f32 0x00000000#32) (ix2 p q)
      + broadcastTo S5000x64 (shapeCast S1x64 x9 shapeCasts_S1x64_S1x64) broadcasts_S1x64_S5000x64 (ix2 p q)) (Ideal.ofBits .f32 0x00000000#32) = _
  rw [shapeCast_self, shapeCast_self, shapeCast_self, broadcastTo_1b_ab_apply, blockDotN]
  rfl

/-- Region 5's store at (p, q) of its block: the update formula over the point's loaded blocks. -/
theorem pay5_apply (x0 x2 : Vec Ideal S5000x64 .f32) (x6 : Vec Ideal S64x64 .f32) (x9 : Vec Ideal S1x64 .f32)
    (p : Fin 5000) (q : Fin 64) :
    k5_pay1 (F := Ideal) x0 x2 x6 x9 (ix2 p q)
      = max (rowDotAdd x0 x2 x6 p q + x9 (ix2 (0 : Fin 1) q)) (Ideal.ofBits .f32 0x00000000#32) := by
  unfold k5_pay1
  show max (matmul (F := Ideal) dot_S5000x64_S64x64_S5000x64_1_0_0_1_n_n none (truncf .bf16 (addf (shapeCast S5000x64 x0 shapeCasts_S5000x64_S5000x64) (shapeCast S5000x64 x2 shapeCasts_S5000x64_S5000x64)) bitsLt_bf16_f32) (truncf .bf16 x6 bitsLt_bf16_f32) (constant S5000x64 .f32 0x00000000#32) (ix2 p q)
      + broadcastTo S5000x64 (shapeCast S1x64 x9 shapeCasts_S1x64_S1x64) broadcasts_S1x64_S5000x64 (ix2 p q)) (Ideal.ofBits .f32 0x00000000#32) = _
  rw [shapeCast_self, shapeCast_self, shapeCast_self, broadcastTo_1b_ab_apply, blockDotN]
  rfl

end Cert.KernelPay

end
-- ==== Proof.Region0.lean ====
/-
  Region 0 (the messages of layer 1) as ONE function of whole arrays. Point t of its grid works on rows
  6400·t … 6400·t + 6399: it loads that block of rows of its two row-blocked operands, the whole weight matrix and the whole bias row,
  and writes back the message formula of them. Entry (p, q) of what it writes is therefore the message stage of the whole
  arrays at row 6400·t + p, because the matrix product's entry only looks at that one row of the left factor. The 250 blocks
  tile the 1600000 rows, so after the region the output array IS the stage of the arrays the region was entered with.
-/
import proofs.«179752_j27565100106143_1_alg».proof.Proof.Gen.KernelIdeal.Frame
import proofs.«179752_j27565100106143_1_alg».proof.Proof.KernelPay
import proofs.«179752_j27565100106143_1_alg».proof.Proof.Stages

set_option maxRecDepth 16384

noncomputable section

namespace Cert.KernelRegion0

open Cert.KernelIdeal Cert.KernelIdeal.Gen Cert.Stages Cert.KernelPay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row t, the weights and the bias at block 0. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = t.val
    ∧ win0_4.index t (1 : Fin 2) = 0 :=
  (by decide +kernel : ∀ t : Fin grid0.N, _)

/-- Row p of point t's block is row 6400·t + p of the array. -/
def rowOf (t : Fin cfg0.N) (p : Fin 6400) : Fin 1600000 :=
  ⟨t.val * 6400 + p.val, by have h1 : t.val < 250 := (N_0 ▸ t.isLt); have h2 := p.isLt; omega⟩

/-- WHAT POINT t WRITES BACK is block t of the message stage of the arrays the region finds. -/
theorem flushed_eq (c : Dev nD) (t : Fin cfg0.N) :
    (dat0 V c).flushed 4 t = ((cfg0.win 4).blk t).view.read (Elt Ideal) (edgeHost (V c main_v10) (V c main_arg2) (V c main_arg4) (V c main_v11)) := by
  show (cfg0.win 4).cut (grid0.coords t) ((dat0 V c).after 4 t) = _
  rw [after0_4]
  unfold out0_4
  rw [View.canon_unit_zero hz]
  simp only [View.ld_unit_zero (S := S6400x64) hz, View.ld_unit_zero (S := S6400x16) hz, View.ld_unit_zero (S := S16x64) hz, View.ld_unit_zero (S := S1x64) hz]
  obtain ⟨a0, a1, b0, b1, c0, c1, d0, d1, o0, o1⟩ := idx_facts t
  funext j
  obtain ⟨p, q, rfl⟩ : ∃ (p : Fin 6400) (q : Fin 64), j = ix2 p q := ⟨j 0, j 1, eq_ix2 j⟩
  have hemb : ((cfg0.win 4).blk t).view.emb (ix2 p q) = ix2 (rowOf t p) q := by
    funext a; apply Fin.ext
    match a with
    | ⟨0, _⟩ => show win0_4.index t (0 : Fin 2) * 6400 + 1 * p.val = t.val * 6400 + p.val; omega
    | ⟨1, _⟩ => show win0_4.index t (1 : Fin 2) * 64 + 1 * q.val = q.val; omega
  show k0_pay1 (F := Ideal) _ _ _ _ (ix2 p q) = (edgeHost (V c main_v10) (V c main_arg2) (V c main_arg4) (V c main_v11)) (((cfg0.win 4).blk t).view.emb (ix2 p q))
  rw [hemb, edgeHost_apply, pay0_apply]
  have h0 : iblk0 V c 0 t (ix2 p q) = V c main_v10 (ix2 (rowOf t p) q) := by
    show V c main_v10 (((cfg0.win 0).blk t).view.emb (ix2 p q)) = _
    refine congrArg _ (funext fun a => Fin.ext ?_)
    match a with
    | ⟨0, _⟩ => show win0_0.index t (0 : Fin 2) * 6400 + 1 * (p).val = t.val * 6400 + (p).val; omega
    | ⟨1, _⟩ => show win0_0.index t (1 : Fin 2) * 64 + 1 * (q).val = (q).val; omega
  have h3 : iblk0 V c 3 t (ix2 (0 : Fin 1) q) = V c main_v11 (ix2 (0 : Fin 1) q) := by
    show V c main_v11 (((cfg0.win 3).blk t).view.emb (ix2 (0 : Fin 1) q)) = _
    refine congrArg _ (funext fun a => Fin.ext ?_)
    match a with
    | ⟨0, _⟩ => show win0_3.index t (0 : Fin 2) * 1 + 1 * ((0 : Fin 1)).val = ((0 : Fin 1)).val; omega
    | ⟨1, _⟩ => show win0_3.index t (1 : Fin 2) * 64 + 1 * (q).val = (q).val; omega
  have hd : rowDot (iblk0 V c 1 t) (iblk0 V c 2 t) p q = rowDot (V c main_arg2) (V c main_arg4) (rowOf t p) q := by
    unfold rowDot
    refine Finset.sum_congr rfl fun k _ => ?_
    have e1 : iblk0 V c 1 t (ix2 p k) = V c main_arg2 (ix2 (rowOf t p) k) := by
      show V c main_arg2 (((cfg0.win 1).blk t).view.emb (ix2 p k)) = _
      refine congrArg _ (funext fun a => Fin.ext ?_)
      match a with
      | ⟨0, _⟩ => show win0_1.index t (0 : Fin 2) * 6400 + 1 * (p).val = t.val * 6400 + (p).val; omega
      | ⟨1, _⟩ => show win0_1.index t (1 : Fin 2) * 16 + 1 * (k).val = (k).val; omega
    have e2 : iblk0 V c 2 t (ix2 k q) = V c main_arg4 (ix2 k q) := by
      show V c main_arg4 (((cfg0.win 2).blk t).view.emb (ix2 k q)) = _
      refine congrArg _ (funext fun a => Fin.ext ?_)
      match a with
      | ⟨0, _⟩ => show win0_2.index t (0 : Fin 2) * 16 + 1 * (k).val = (k).val; omega
      | ⟨1, _⟩ => show win0_2.index t (1 : Fin 2) * 64 + 1 * (q).val = (q).val; omega
    rw [e1, e2]
  rw [h0, hd, h3]

/-- An index of the output array is in point t's block iff each coordinate is in the block's range on its axis. -/
theorem mem_blk (t : Fin cfg0.N) (i : S1600000x64.Idx) :
    i ∈ ((cfg0.win 4).blk t).view.set ↔ ∀ a : Fin 2, win0_4.index t a * S6400x64.size a ≤ (i a).val ∧ (i a).val < win0_4.index t a * S6400x64.size a + S6400x64.size a := by
  show i ∈ ((View.whole main_v12).slice (win0_4.rect t)).set ↔ _
  rw [View.set_slice_whole, Rect.mem_set_unit]
  exact Iff.rfl

/-- Every row of the output array lies in the block of the point numbered row / 6400: the blocks tile the array. -/
theorem cover (i : S1600000x64.Idx) : ∃ t : Fin cfg0.N, (cfg0.win 4).flush t = true ∧ i ∈ ((cfg0.win 4).blk t).view.set := by
  have hi0 : (i 0).val < 1600000 := (i 0).isLt
  have hi1 : (i 1).val < 64 := (i 1).isLt
  have hN : (i 0).val / 6400 < cfg0.N := by show (i 0).val / 6400 < grid0.N; rw [N_0]; omega
  obtain ⟨_, _, _, _, _, _, _, _, o0, o1⟩ := idx_facts ⟨(i 0).val / 6400, hN⟩
  have o0' : win0_4.index ⟨(i 0).val / 6400, hN⟩ (0 : Fin 2) = (i 0).val / 6400 := o0
  refine ⟨⟨(i 0).val / 6400, hN⟩, flush0_4 _, ?_⟩
  rw [mem_blk]
  intro a
  match a with
  | ⟨0, _⟩ => show win0_4.index ⟨(i 0).val / 6400, hN⟩ (0 : Fin 2) * 6400 ≤ (i 0).val ∧ (i 0).val < win0_4.index ⟨(i 0).val / 6400, hN⟩ (0 : Fin 2) * 6400 + 6400; omega
  | ⟨1, _⟩ => show win0_4.index ⟨(i 0).val / 6400, hN⟩ (1 : Fin 2) * 64 ≤ (i 1).val ∧ (i 1).val < win0_4.index ⟨(i 0).val / 6400, hN⟩ (1 : Fin 2) * 64 + 64; omega

/-- THE OUTPUT ARRAY after the region is the message stage of the arrays the region was entered with. -/
theorem final (c : Dev nD) : (dat0 V c).arrAt 4 cfg0.N = edgeHost (V c main_v10) (V c main_arg2) (V c main_arg4) (V c main_v11) :=
  (dat0 V c).arrAt_eq_of_cover 4 _ (fun t _ => flushed_eq V c t) cover

end Cert.KernelRegion0

end
-- ==== Proof.Region1.lean ====
/-
  Region 1 (the node update of layer 1) as ONE function of whole arrays. Point t of its grid works on rows
  5000·t … 5000·t + 4999: it loads that block of rows of its two row-blocked operands, the whole weight matrix and the whole bias row,
  and writes back the update formula of them. Entry (p, q) of what it writes is therefore the update stage of the whole
  arrays at row 5000·t + p, because the matrix product's entry only looks at that one row of the left factor. The 20 blocks
  tile the 100000 rows, so after the region the output array IS the stage of the arrays the region was entered with.
-/
import proofs.«179752_j27565100106143_1_alg».proof.Proof.Gen.KernelIdeal.Frame
import proofs.«179752_j27565100106143_1_alg».proof.Proof.KernelPay
import proofs.«179752_j27565100106143_1_alg».proof.Proof.Stages

set_option maxRecDepth 16384

noncomputable section

namespace Cert.KernelRegion1

open Cert.KernelIdeal Cert.KernelIdeal.Gen Cert.Stages Cert.KernelPay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row t, the weights and the bias at block 0. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0 :=
  (by decide +kernel : ∀ t : Fin grid1.N, _)

/-- Row p of point t's block is row 5000·t + p of the array. -/
def rowOf (t : Fin cfg1.N) (p : Fin 5000) : Fin 100000 :=
  ⟨t.val * 5000 + p.val, by have h1 : t.val < 20 := (N_1 ▸ t.isLt); have h2 := p.isLt; omega⟩

/-- WHAT POINT t WRITES BACK is block t of the update stage of the arrays the region finds. -/
theorem flushed_eq (c : Dev nD) (t : Fin cfg1.N) :
    (dat1 V c).flushed 4 t = ((cfg1.win 4).blk t).view.read (Elt Ideal) (nodeHost (V c main_arg0) (V c main_v15) (V c main_arg6) (V c main_v16)) := by
  show (cfg1.win 4).cut (grid1.coords t) ((dat1 V c).after 4 t) = _
  rw [after1_4]
  unfold out1_4
  rw [View.canon_unit_zero hz]
  simp only [View.ld_unit_zero (S := S5000x64) hz, View.ld_unit_zero (S := S64x64) hz, View.ld_unit_zero (S := S1x64) hz]
  obtain ⟨a0, a1, b0, b1, c0, c1, d0, d1, o0, o1⟩ := idx_facts t
  funext j
  obtain ⟨p, q, rfl⟩ : ∃ (p : Fin 5000) (q : Fin 64), j = ix2 p q := ⟨j 0, j 1, eq_ix2 j⟩
  have hemb : ((cfg1.win 4).blk t).view.emb (ix2 p q) = ix2 (rowOf t p) q := by
    funext a; apply Fin.ext
    match a with
    | ⟨0, _⟩ => show win1_4.index t (0 : Fin 2) * 5000 + 1 * p.val = t.val * 5000 + p.val; omega
    | ⟨1, _⟩ => show win1_4.index t (1 : Fin 2) * 64 + 1 * q.val = q.val; omega
  show k1_pay1 (F := Ideal) _ _ _ _ (ix2 p q) = (nodeHost (V c main_arg0) (V c main_v15) (V c main_arg6) (V c main_v16)) (((cfg1.win 4).blk t).view.emb (ix2 p q))
  rw [hemb, nodeHost_apply, pay1_apply]
  have h3 : iblk1 V c 3 t (ix2 (0 : Fin 1) q) = V c main_v16 (ix2 (0 : Fin 1) q) := by
    show V c main_v16 (((cfg1.win 3).blk t).view.emb (ix2 (0 : Fin 1) q)) = _
    refine congrArg _ (funext fun a => Fin.ext ?_)
    match a with
    | ⟨0, _⟩ => show win1_3.index t (0 : Fin 2) * 1 + 1 * ((0 : Fin 1)).val = ((0 : Fin 1)).val; omega
    | ⟨1, _⟩ => show win1_3.index t (1 : Fin 2) * 64 + 1 * (q).val = (q).val; omega
  have hd : rowDotAdd (iblk1 V c 0 t) (iblk1 V c 1 t) (iblk1 V c 2 t) p q
      = rowDotAdd (V c main_arg0) (V c main_v15) (V c main_arg6) (rowOf t p) q := by
    unfold rowDotAdd
    refine Finset.sum_congr rfl fun k _ => ?_
    have e0 : iblk1 V c 0 t (ix2 p k) = V c main_arg0 (ix2 (rowOf t p) k) := by
      show V c main_arg0 (((cfg1.win 0).blk t).view.emb (ix2 p k)) = _
      refine congrArg _ (funext fun a => Fin.ext ?_)
      match a with
      | ⟨0, _⟩ => show win1_0.index t (0 : Fin 2) * 5000 + 1 * (p).val = t.val * 5000 + (p).val; omega
      | ⟨1, _⟩ => show win1_0.index t (1 : Fin 2) * 64 + 1 * (k).val = (k).val; omega
    have e1 : iblk1 V c 1 t (ix2 p k) = V c main_v15 (ix2 (rowOf t p) k) := by
      show V c main_v15 (((cfg1.win 1).blk t).view.emb (ix2 p k)) = _
      refine congrArg _ (funext fun a => Fin.ext ?_)
      match a with
      | ⟨0, _⟩ => show win1_1.index t (0 : Fin 2) * 5000 + 1 * (p).val = t.val * 5000 + (p).val; omega
      | ⟨1, _⟩ => show win1_1.index t (1 : Fin 2) * 64 + 1 * (k).val = (k).val; omega
    have e2 : iblk1 V c 2 t (ix2 k q) = V c main_arg6 (ix2 k q) := by
      show V c main_arg6 (((cfg1.win 2).blk t).view.emb (ix2 k q)) = _
      refine congrArg _ (funext fun a => Fin.ext ?_)
      match a with
      | ⟨0, _⟩ => show win1_2.index t (0 : Fin 2) * 64 + 1 * (k).val = (k).val; omega
      | ⟨1, _⟩ => show win1_2.index t (1 : Fin 2) * 64 + 1 * (q).val = (q).val; omega
    rw [e0, e1, e2]
  rw [hd, h3]

/-- An index of the output array is in point t's block iff each coordinate is in the block's range on its axis. -/
theorem mem_blk (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v17).slice (win1_4.rect t)).set ↔ _
  rw [View.set_slice_whole, Rect.mem_set_unit]
  exact Iff.rfl

/-- Every row of the output array lies in the block of the point numbered row / 5000: the blocks tile the array. -/
theorem cover (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : (i 0).val / 5000 < cfg1.N := by show (i 0).val / 5000 < grid1.N; rw [N_1]; omega
  obtain ⟨_, _, _, _, _, _, _, _, o0, o1⟩ := idx_facts ⟨(i 0).val / 5000, hN⟩
  have o0' : win1_4.index ⟨(i 0).val / 5000, hN⟩ (0 : Fin 2) = (i 0).val / 5000 := o0
  refine ⟨⟨(i 0).val / 5000, hN⟩, flush1_4 _, ?_⟩
  rw [mem_blk]
  intro a
  match a with
  | ⟨0, _⟩ => show win1_4.index ⟨(i 0).val / 5000, hN⟩ (0 : Fin 2) * 5000 ≤ (i 0).val ∧ (i 0).val < win1_4.index ⟨(i 0).val / 5000, hN⟩ (0 : Fin 2) * 5000 + 5000; omega
  | ⟨1, _⟩ => show win1_4.index ⟨(i 0).val / 5000, hN⟩ (1 : Fin 2) * 64 ≤ (i 1).val ∧ (i 1).val < win1_4.index ⟨(i 0).val / 5000, hN⟩ (1 : Fin 2) * 64 + 64; omega

/-- THE OUTPUT ARRAY after the region is the update stage of the arrays the region was entered with. -/
theorem final (c : Dev nD) : (dat1 V c).arrAt 4 cfg1.N = nodeHost (V c main_arg0) (V c main_v15) (V c main_arg6) (V c main_v16) :=
  (dat1 V c).arrAt_eq_of_cover 4 _ (fun t _ => flushed_eq V c t) cover

end Cert.KernelRegion1

end
-- ==== Proof.Region2.lean ====
/-
  Region 2 (the messages of layer 2) as ONE function of whole arrays. Point t of its grid works on rows
  6400·t … 6400·t + 6399: it loads that block of rows of its two row-blocked operands, the whole weight matrix and the whole bias row,
  and writes back the message formula of them. Entry (p, q) of what it writes is therefore the message stage of the whole
  arrays at row 6400·t + p, because the matrix product's entry only looks at that one row of the left factor. The 250 blocks
  tile the 1600000 rows, so after the region the output array IS the stage of the arrays the region was entered with.
-/
import proofs.«179752_j27565100106143_1_alg».proof.Proof.Gen.KernelIdeal.Frame
import proofs.«179752_j27565100106143_1_alg».proof.Proof.KernelPay
import proofs.«179752_j27565100106143_1_alg».proof.Proof.Stages

set_option maxRecDepth 16384

noncomputable section

namespace Cert.KernelRegion2

open Cert.KernelIdeal Cert.KernelIdeal.Gen Cert.Stages Cert.KernelPay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row t, the weights and the bias at block 0. -/
theorem idx_facts : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = t.val
    ∧ win2_4.index t (1 : Fin 2) = 0 :=
  (by decide +kernel : ∀ t : Fin grid2.N, _)

/-- Row p of point t's block is row 6400·t + p of the array. -/
def rowOf (t : Fin cfg2.N) (p : Fin 6400) : Fin 1600000 :=
  ⟨t.val * 6400 + p.val, by have h1 : t.val < 250 := (N_2 ▸ t.isLt); have h2 := p.isLt; omega⟩

/-- WHAT POINT t WRITES BACK is block t of the message stage of the arrays the region finds. -/
theorem flushed_eq (c : Dev nD) (t : Fin cfg2.N) :
    (dat2 V c).flushed 4 t = ((cfg2.win 4).blk t).view.read (Elt Ideal) (edgeHost (V c main_v24) (V c main_arg2) (V c main_arg8) (V c main_v25)) := by
  show (cfg2.win 4).cut (grid2.coords t) ((dat2 V c).after 4 t) = _
  rw [after2_4]
  unfold out2_4
  rw [View.canon_unit_zero hz]
  simp only [View.ld_unit_zero (S := S6400x64) hz, View.ld_unit_zero (S := S6400x16) hz, View.ld_unit_zero (S := S16x64) hz, View.ld_unit_zero (S := S1x64) hz]
  obtain ⟨a0, a1, b0, b1, c0, c1, d0, d1, o0, o1⟩ := idx_facts t
  funext j
  obtain ⟨p, q, rfl⟩ : ∃ (p : Fin 6400) (q : Fin 64), j = ix2 p q := ⟨j 0, j 1, eq_ix2 j⟩
  have hemb : ((cfg2.win 4).blk t).view.emb (ix2 p q) = ix2 (rowOf t p) q := by
    funext a; apply Fin.ext
    match a with
    | ⟨0, _⟩ => show win2_4.index t (0 : Fin 2) * 6400 + 1 * p.val = t.val * 6400 + p.val; omega
    | ⟨1, _⟩ => show win2_4.index t (1 : Fin 2) * 64 + 1 * q.val = q.val; omega
  show k2_pay1 (F := Ideal) _ _ _ _ (ix2 p q) = (edgeHost (V c main_v24) (V c main_arg2) (V c main_arg8) (V c main_v25)) (((cfg2.win 4).blk t).view.emb (ix2 p q))
  rw [hemb, edgeHost_apply, pay2_apply]
  have h0 : iblk2 V c 0 t (ix2 p q) = V c main_v24 (ix2 (rowOf t p) q) := by
    show V c main_v24 (((cfg2.win 0).blk t).view.emb (ix2 p q)) = _
    refine congrArg _ (funext fun a => Fin.ext ?_)
    match a with
    | ⟨0, _⟩ => show win2_0.index t (0 : Fin 2) * 6400 + 1 * (p).val = t.val * 6400 + (p).val; omega
    | ⟨1, _⟩ => show win2_0.index t (1 : Fin 2) * 64 + 1 * (q).val = (q).val; omega
  have h3 : iblk2 V c 3 t (ix2 (0 : Fin 1) q) = V c main_v25 (ix2 (0 : Fin 1) q) := by
    show V c main_v25 (((cfg2.win 3).blk t).view.emb (ix2 (0 : Fin 1) q)) = _
    refine congrArg _ (funext fun a => Fin.ext ?_)
    match a with
    | ⟨0, _⟩ => show win2_3.index t (0 : Fin 2) * 1 + 1 * ((0 : Fin 1)).val = ((0 : Fin 1)).val; omega
    | ⟨1, _⟩ => show win2_3.index t (1 : Fin 2) * 64 + 1 * (q).val = (q).val; omega
  have hd : rowDot (iblk2 V c 1 t) (iblk2 V c 2 t) p q = rowDot (V c main_arg2) (V c main_arg8) (rowOf t p) q := by
    unfold rowDot
    refine Finset.sum_congr rfl fun k _ => ?_
    have e1 : iblk2 V c 1 t (ix2 p k) = V c main_arg2 (ix2 (rowOf t p) k) := by
      show V c main_arg2 (((cfg2.win 1).blk t).view.emb (ix2 p k)) = _
      refine congrArg _ (funext fun a => Fin.ext ?_)
      match a with
      | ⟨0, _⟩ => show win2_1.index t (0 : Fin 2) * 6400 + 1 * (p).val = t.val * 6400 + (p).val; omega
      | ⟨1, _⟩ => show win2_1.index t (1 : Fin 2) * 16 + 1 * (k).val = (k).val; omega
    have e2 : iblk2 V c 2 t (ix2 k q) = V c main_arg8 (ix2 k q) := by
      show V c main_arg8 (((cfg2.win 2).blk t).view.emb (ix2 k q)) = _
      refine congrArg _ (funext fun a => Fin.ext ?_)
      match a with
      | ⟨0, _⟩ => show win2_2.index t (0 : Fin 2) * 16 + 1 * (k).val = (k).val; omega
      | ⟨1, _⟩ => show win2_2.index t (1 : Fin 2) * 64 + 1 * (q).val = (q).val; omega
    rw [e1, e2]
  rw [h0, hd, h3]

/-- An index of the output array is in point t's block iff each coordinate is in the block's range on its axis. -/
theorem mem_blk (t : Fin cfg2.N) (i : S1600000x64.Idx) :
    i ∈ ((cfg2.win 4).blk t).view.set ↔ ∀ a : Fin 2, win2_4.index t a * S6400x64.size a ≤ (i a).val ∧ (i a).val < win2_4.index t a * S6400x64.size a + S6400x64.size a := by
  show i ∈ ((View.whole main_v26).slice (win2_4.rect t)).set ↔ _
  rw [View.set_slice_whole, Rect.mem_set_unit]
  exact Iff.rfl

/-- Every row of the output array lies in the block of the point numbered row / 6400: the blocks tile the array. -/
theorem cover (i : S1600000x64.Idx) : ∃ t : Fin cfg2.N, (cfg2.win 4).flush t = true ∧ i ∈ ((cfg2.win 4).blk t).view.set := by
  have hi0 : (i 0).val < 1600000 := (i 0).isLt
  have hi1 : (i 1).val < 64 := (i 1).isLt
  have hN : (i 0).val / 6400 < cfg2.N := by show (i 0).val / 6400 < grid2.N; rw [N_2]; omega
  obtain ⟨_, _, _, _, _, _, _, _, o0, o1⟩ := idx_facts ⟨(i 0).val / 6400, hN⟩
  have o0' : win2_4.index ⟨(i 0).val / 6400, hN⟩ (0 : Fin 2) = (i 0).val / 6400 := o0
  refine ⟨⟨(i 0).val / 6400, hN⟩, flush2_4 _, ?_⟩
  rw [mem_blk]
  intro a
  match a with
  | ⟨0, _⟩ => show win2_4.index ⟨(i 0).val / 6400, hN⟩ (0 : Fin 2) * 6400 ≤ (i 0).val ∧ (i 0).val < win2_4.index ⟨(i 0).val / 6400, hN⟩ (0 : Fin 2) * 6400 + 6400; omega
  | ⟨1, _⟩ => show win2_4.index ⟨(i 0).val / 6400, hN⟩ (1 : Fin 2) * 64 ≤ (i 1).val ∧ (i 1).val < win2_4.index ⟨(i 0).val / 6400, hN⟩ (1 : Fin 2) * 64 + 64; omega

/-- THE OUTPUT ARRAY after the region is the message stage of the arrays the region was entered with. -/
theorem final (c : Dev nD) : (dat2 V c).arrAt 4 cfg2.N = edgeHost (V c main_v24) (V c main_arg2) (V c main_arg8) (V c main_v25) :=
  (dat2 V c).arrAt_eq_of_cover 4 _ (fun t _ => flushed_eq V c t) cover

end Cert.KernelRegion2

end
-- ==== Proof.Region3.lean ====
/-
  Region 3 (the node update of layer 2) as ONE function of whole arrays. Point t of its grid works on rows
  5000·t … 5000·t + 4999: it loads that block of rows of its two row-blocked operands, the whole weight matrix and the whole bias row,
  and writes back the update formula of them. Entry (p, q) of what it writes is therefore the update stage of the whole
  arrays at row 5000·t + p, because the matrix product's entry only looks at that one row of the left factor. The 20 blocks
  tile the 100000 rows, so after the region the output array IS the stage of the arrays the region was entered with.
-/
import proofs.«179752_j27565100106143_1_alg».proof.Proof.Gen.KernelIdeal.Frame
import proofs.«179752_j27565100106143_1_alg».proof.Proof.KernelPay
import proofs.«179752_j27565100106143_1_alg».proof.Proof.Stages

set_option maxRecDepth 16384

noncomputable section

namespace Cert.KernelRegion3

open Cert.KernelIdeal Cert.KernelIdeal.Gen Cert.Stages Cert.KernelPay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row t, the weights and the bias at block 0. -/
theorem idx_facts : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = t.val
    ∧ win3_4.index t (1 : Fin 2) = 0 :=
  (by decide +kernel : ∀ t : Fin grid3.N, _)

/-- Row p of point t's block is row 5000·t + p of the array. -/
def rowOf (t : Fin cfg3.N) (p : Fin 5000) : Fin 100000 :=
  ⟨t.val * 5000 + p.val, by have h1 : t.val < 20 := (N_3 ▸ t.isLt); have h2 := p.isLt; omega⟩

/-- WHAT POINT t WRITES BACK is block t of the update stage of the arrays the region finds. -/
theorem flushed_eq (c : Dev nD) (t : Fin cfg3.N) :
    (dat3 V c).flushed 4 t = ((cfg3.win 4).blk t).view.read (Elt Ideal) (nodeHost (V c main_v17) (V c main_v29) (V c main_arg10) (V c main_v30)) := by
  show (cfg3.win 4).cut (grid3.coords t) ((dat3 V c).after 4 t) = _
  rw [after3_4]
  unfold out3_4
  rw [View.canon_unit_zero hz]
  simp only [View.ld_unit_zero (S := S5000x64) hz, View.ld_unit_zero (S := S64x64) hz, View.ld_unit_zero (S := S1x64) hz]
  obtain ⟨a0, a1, b0, b1, c0, c1, d0, d1, o0, o1⟩ := idx_facts t
  funext j
  obtain ⟨p, q, rfl⟩ : ∃ (p : Fin 5000) (q : Fin 64), j = ix2 p q := ⟨j 0, j 1, eq_ix2 j⟩
  have hemb : ((cfg3.win 4).blk t).view.emb (ix2 p q) = ix2 (rowOf t p) q := by
    funext a; apply Fin.ext
    match a with
    | ⟨0, _⟩ => show win3_4.index t (0 : Fin 2) * 5000 + 1 * p.val = t.val * 5000 + p.val; omega
    | ⟨1, _⟩ => show win3_4.index t (1 : Fin 2) * 64 + 1 * q.val = q.val; omega
  show k3_pay1 (F := Ideal) _ _ _ _ (ix2 p q) = (nodeHost (V c main_v17) (V c main_v29) (V c main_arg10) (V c main_v30)) (((cfg3.win 4).blk t).view.emb (ix2 p q))
  rw [hemb, nodeHost_apply, pay3_apply]
  have h3 : iblk3 V c 3 t (ix2 (0 : Fin 1) q) = V c main_v30 (ix2 (0 : Fin 1) q) := by
    show V c main_v30 (((cfg3.win 3).blk t).view.emb (ix2 (0 : Fin 1) q)) = _
    refine congrArg _ (funext fun a => Fin.ext ?_)
    match a with
    | ⟨0, _⟩ => show win3_3.index t (0 : Fin 2) * 1 + 1 * ((0 : Fin 1)).val = ((0 : Fin 1)).val; omega
    | ⟨1, _⟩ => show win3_3.index t (1 : Fin 2) * 64 + 1 * (q).val = (q).val; omega
  have hd : rowDotAdd (iblk3 V c 0 t) (iblk3 V c 1 t) (iblk3 V c 2 t) p q
      = rowDotAdd (V c main_v17) (V c main_v29) (V c main_arg10) (rowOf t p) q := by
    unfold rowDotAdd
    refine Finset.sum_congr rfl fun k _ => ?_
    have e0 : iblk3 V c 0 t (ix2 p k) = V c main_v17 (ix2 (rowOf t p) k) := by
      show V c main_v17 (((cfg3.win 0).blk t).view.emb (ix2 p k)) = _
      refine congrArg _ (funext fun a => Fin.ext ?_)
      match a with
      | ⟨0, _⟩ => show win3_0.index t (0 : Fin 2) * 5000 + 1 * (p).val = t.val * 5000 + (p).val; omega
      | ⟨1, _⟩ => show win3_0.index t (1 : Fin 2) * 64 + 1 * (k).val = (k).val; omega
    have e1 : iblk3 V c 1 t (ix2 p k) = V c main_v29 (ix2 (rowOf t p) k) := by
      show V c main_v29 (((cfg3.win 1).blk t).view.emb (ix2 p k)) = _
      refine congrArg _ (funext fun a => Fin.ext ?_)
      match a with
      | ⟨0, _⟩ => show win3_1.index t (0 : Fin 2) * 5000 + 1 * (p).val = t.val * 5000 + (p).val; omega
      | ⟨1, _⟩ => show win3_1.index t (1 : Fin 2) * 64 + 1 * (k).val = (k).val; omega
    have e2 : iblk3 V c 2 t (ix2 k q) = V c main_arg10 (ix2 k q) := by
      show V c main_arg10 (((cfg3.win 2).blk t).view.emb (ix2 k q)) = _
      refine congrArg _ (funext fun a => Fin.ext ?_)
      match a with
      | ⟨0, _⟩ => show win3_2.index t (0 : Fin 2) * 64 + 1 * (k).val = (k).val; omega
      | ⟨1, _⟩ => show win3_2.index t (1 : Fin 2) * 64 + 1 * (q).val = (q).val; omega
    rw [e0, e1, e2]
  rw [hd, h3]

/-- An index of the output array is in point t's block iff each coordinate is in the block's range on its axis. -/
theorem mem_blk (t : Fin cfg3.N) (i : S100000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v31).slice (win3_4.rect t)).set ↔ _
  rw [View.set_slice_whole, Rect.mem_set_unit]
  exact Iff.rfl

/-- Every row of the output array lies in the block of the point numbered row / 5000: the blocks tile the array. -/
theorem cover (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  have hN : (i 0).val / 5000 < cfg3.N := by show (i 0).val / 5000 < grid3.N; rw [N_3]; omega
  obtain ⟨_, _, _, _, _, _, _, _, o0, o1⟩ := idx_facts ⟨(i 0).val / 5000, hN⟩
  have o0' : win3_4.index ⟨(i 0).val / 5000, hN⟩ (0 : Fin 2) = (i 0).val / 5000 := o0
  refine ⟨⟨(i 0).val / 5000, hN⟩, flush3_4 _, ?_⟩
  rw [mem_blk]
  intro a
  match a with
  | ⟨0, _⟩ => show win3_4.index ⟨(i 0).val / 5000, hN⟩ (0 : Fin 2) * 5000 ≤ (i 0).val ∧ (i 0).val < win3_4.index ⟨(i 0).val / 5000, hN⟩ (0 : Fin 2) * 5000 + 5000; omega
  | ⟨1, _⟩ => show win3_4.index ⟨(i 0).val / 5000, hN⟩ (1 : Fin 2) * 64 ≤ (i 1).val ∧ (i 1).val < win3_4.index ⟨(i 0).val / 5000, hN⟩ (1 : Fin 2) * 64 + 64; omega

/-- THE OUTPUT ARRAY after the region is the update stage of the arrays the region was entered with. -/
theorem final (c : Dev nD) : (dat3 V c).arrAt 4 cfg3.N = nodeHost (V c main_v17) (V c main_v29) (V c main_arg10) (V c main_v30) :=
  (dat3 V c).arrAt_eq_of_cover 4 _ (fun t _ => flushed_eq V c t) cover

end Cert.KernelRegion3

end
-- ==== Proof.Region4.lean ====
/-
  Region 4 (the messages of layer 3) as ONE function of whole arrays. Point t of its grid works on rows
  6400·t … 6400·t + 6399: it loads that block of rows of its two row-blocked operands, the whole weight matrix and the whole bias row,
  and writes back the message formula of them. Entry (p, q) of what it writes is therefore the message stage of the whole
  arrays at row 6400·t + p, because the matrix product's entry only looks at that one row of the left factor. The 250 blocks
  tile the 1600000 rows, so after the region the output array IS the stage of the arrays the region was entered with.
-/
import proofs.«179752_j27565100106143_1_alg».proof.Proof.Gen.KernelIdeal.Frame
import proofs.«179752_j27565100106143_1_alg».proof.Proof.KernelPay
import proofs.«179752_j27565100106143_1_alg».proof.Proof.Stages

set_option maxRecDepth 16384

noncomputable section

namespace Cert.KernelRegion4

open Cert.KernelIdeal Cert.KernelIdeal.Gen Cert.Stages Cert.KernelPay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row t, the weights and the bias at block 0. -/
theorem idx_facts : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = t.val
    ∧ win4_4.index t (1 : Fin 2) = 0 :=
  (by decide +kernel : ∀ t : Fin grid4.N, _)

/-- Row p of point t's block is row 6400·t + p of the array. -/
def rowOf (t : Fin cfg4.N) (p : Fin 6400) : Fin 1600000 :=
  ⟨t.val * 6400 + p.val, by have h1 : t.val < 250 := (N_4 ▸ t.isLt); have h2 := p.isLt; omega⟩

/-- WHAT POINT t WRITES BACK is block t of the message stage of the arrays the region finds. -/
theorem flushed_eq (c : Dev nD) (t : Fin cfg4.N) :
    (dat4 V c).flushed 4 t = ((cfg4.win 4).blk t).view.read (Elt Ideal) (edgeHost (V c main_v38) (V c main_arg2) (V c main_arg12) (V c main_v39)) := by
  show (cfg4.win 4).cut (grid4.coords t) ((dat4 V c).after 4 t) = _
  rw [after4_4]
  unfold out4_4
  rw [View.canon_unit_zero hz]
  simp only [View.ld_unit_zero (S := S6400x64) hz, View.ld_unit_zero (S := S6400x16) hz, View.ld_unit_zero (S := S16x64) hz, View.ld_unit_zero (S := S1x64) hz]
  obtain ⟨a0, a1, b0, b1, c0, c1, d0, d1, o0, o1⟩ := idx_facts t
  funext j
  obtain ⟨p, q, rfl⟩ : ∃ (p : Fin 6400) (q : Fin 64), j = ix2 p q := ⟨j 0, j 1, eq_ix2 j⟩
  have hemb : ((cfg4.win 4).blk t).view.emb (ix2 p q) = ix2 (rowOf t p) q := by
    funext a; apply Fin.ext
    match a with
    | ⟨0, _⟩ => show win4_4.index t (0 : Fin 2) * 6400 + 1 * p.val = t.val * 6400 + p.val; omega
    | ⟨1, _⟩ => show win4_4.index t (1 : Fin 2) * 64 + 1 * q.val = q.val; omega
  show k4_pay1 (F := Ideal) _ _ _ _ (ix2 p q) = (edgeHost (V c main_v38) (V c main_arg2) (V c main_arg12) (V c main_v39)) (((cfg4.win 4).blk t).view.emb (ix2 p q))
  rw [hemb, edgeHost_apply, pay4_apply]
  have h0 : iblk4 V c 0 t (ix2 p q) = V c main_v38 (ix2 (rowOf t p) q) := by
    show V c main_v38 (((cfg4.win 0).blk t).view.emb (ix2 p q)) = _
    refine congrArg _ (funext fun a => Fin.ext ?_)
    match a with
    | ⟨0, _⟩ => show win4_0.index t (0 : Fin 2) * 6400 + 1 * (p).val = t.val * 6400 + (p).val; omega
    | ⟨1, _⟩ => show win4_0.index t (1 : Fin 2) * 64 + 1 * (q).val = (q).val; omega
  have h3 : iblk4 V c 3 t (ix2 (0 : Fin 1) q) = V c main_v39 (ix2 (0 : Fin 1) q) := by
    show V c main_v39 (((cfg4.win 3).blk t).view.emb (ix2 (0 : Fin 1) q)) = _
    refine congrArg _ (funext fun a => Fin.ext ?_)
    match a with
    | ⟨0, _⟩ => show win4_3.index t (0 : Fin 2) * 1 + 1 * ((0 : Fin 1)).val = ((0 : Fin 1)).val; omega
    | ⟨1, _⟩ => show win4_3.index t (1 : Fin 2) * 64 + 1 * (q).val = (q).val; omega
  have hd : rowDot (iblk4 V c 1 t) (iblk4 V c 2 t) p q = rowDot (V c main_arg2) (V c main_arg12) (rowOf t p) q := by
    unfold rowDot
    refine Finset.sum_congr rfl fun k _ => ?_
    have e1 : iblk4 V c 1 t (ix2 p k) = V c main_arg2 (ix2 (rowOf t p) k) := by
      show V c main_arg2 (((cfg4.win 1).blk t).view.emb (ix2 p k)) = _
      refine congrArg _ (funext fun a => Fin.ext ?_)
      match a with
      | ⟨0, _⟩ => show win4_1.index t (0 : Fin 2) * 6400 + 1 * (p).val = t.val * 6400 + (p).val; omega
      | ⟨1, _⟩ => show win4_1.index t (1 : Fin 2) * 16 + 1 * (k).val = (k).val; omega
    have e2 : iblk4 V c 2 t (ix2 k q) = V c main_arg12 (ix2 k q) := by
      show V c main_arg12 (((cfg4.win 2).blk t).view.emb (ix2 k q)) = _
      refine congrArg _ (funext fun a => Fin.ext ?_)
      match a with
      | ⟨0, _⟩ => show win4_2.index t (0 : Fin 2) * 16 + 1 * (k).val = (k).val; omega
      | ⟨1, _⟩ => show win4_2.index t (1 : Fin 2) * 64 + 1 * (q).val = (q).val; omega
    rw [e1, e2]
  rw [h0, hd, h3]

/-- An index of the output array is in point t's block iff each coordinate is in the block's range on its axis. -/
theorem mem_blk (t : Fin cfg4.N) (i : S1600000x64.Idx) :
    i ∈ ((cfg4.win 4).blk t).view.set ↔ ∀ a : Fin 2, win4_4.index t a * S6400x64.size a ≤ (i a).val ∧ (i a).val < win4_4.index t a * S6400x64.size a + S6400x64.size a := by
  show i ∈ ((View.whole main_v40).slice (win4_4.rect t)).set ↔ _
  rw [View.set_slice_whole, Rect.mem_set_unit]
  exact Iff.rfl

/-- Every row of the output array lies in the block of the point numbered row / 6400: the blocks tile the array. -/
theorem cover (i : S1600000x64.Idx) : ∃ t : Fin cfg4.N, (cfg4.win 4).flush t = true ∧ i ∈ ((cfg4.win 4).blk t).view.set := by
  have hi0 : (i 0).val < 1600000 := (i 0).isLt
  have hi1 : (i 1).val < 64 := (i 1).isLt
  have hN : (i 0).val / 6400 < cfg4.N := by show (i 0).val / 6400 < grid4.N; rw [N_4]; omega
  obtain ⟨_, _, _, _, _, _, _, _, o0, o1⟩ := idx_facts ⟨(i 0).val / 6400, hN⟩
  have o0' : win4_4.index ⟨(i 0).val / 6400, hN⟩ (0 : Fin 2) = (i 0).val / 6400 := o0
  refine ⟨⟨(i 0).val / 6400, hN⟩, flush4_4 _, ?_⟩
  rw [mem_blk]
  intro a
  match a with
  | ⟨0, _⟩ => show win4_4.index ⟨(i 0).val / 6400, hN⟩ (0 : Fin 2) * 6400 ≤ (i 0).val ∧ (i 0).val < win4_4.index ⟨(i 0).val / 6400, hN⟩ (0 : Fin 2) * 6400 + 6400; omega
  | ⟨1, _⟩ => show win4_4.index ⟨(i 0).val / 6400, hN⟩ (1 : Fin 2) * 64 ≤ (i 1).val ∧ (i 1).val < win4_4.index ⟨(i 0).val / 6400, hN⟩ (1 : Fin 2) * 64 + 64; omega

/-- THE OUTPUT ARRAY after the region is the message stage of the arrays the region was entered with. -/
theorem final (c : Dev nD) : (dat4 V c).arrAt 4 cfg4.N = edgeHost (V c main_v38) (V c main_arg2) (V c main_arg12) (V c main_v39) :=
  (dat4 V c).arrAt_eq_of_cover 4 _ (fun t _ => flushed_eq V c t) cover

end Cert.KernelRegion4

end
-- ==== Proof.Region5.lean ====
/-
  Region 5 (the node update of layer 3) as ONE function of whole arrays. Point t of its grid works on rows
  5000·t … 5000·t + 4999: it loads that block of rows of its two row-blocked operands, the whole weight matrix and the whole bias row,
  and writes back the update formula of them. Entry (p, q) of what it writes is therefore the update stage of the whole
  arrays at row 5000·t + p, because the matrix product's entry only looks at that one row of the left factor. The 20 blocks
  tile the 100000 rows, so after the region the output array IS the stage of the arrays the region was entered with.
-/
import proofs.«179752_j27565100106143_1_alg».proof.Proof.Gen.KernelIdeal.Frame
import proofs.«179752_j27565100106143_1_alg».proof.Proof.KernelPay
import proofs.«179752_j27565100106143_1_alg».proof.Proof.Stages

set_option maxRecDepth 16384

noncomputable section

namespace Cert.KernelRegion5

open Cert.KernelIdeal Cert.KernelIdeal.Gen Cert.Stages Cert.KernelPay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row t, the weights and the bias at block 0. -/
theorem idx_facts : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = t.val
    ∧ win5_4.index t (1 : Fin 2) = 0 :=
  (by decide +kernel : ∀ t : Fin grid5.N, _)

/-- Row p of point t's block is row 5000·t + p of the array. -/
def rowOf (t : Fin cfg5.N) (p : Fin 5000) : Fin 100000 :=
  ⟨t.val * 5000 + p.val, by have h1 : t.val < 20 := (N_5 ▸ t.isLt); have h2 := p.isLt; omega⟩

/-- WHAT POINT t WRITES BACK is block t of the update stage of the arrays the region finds. -/
theorem flushed_eq (c : Dev nD) (t : Fin cfg5.N) :
    (dat5 V c).flushed 4 t = ((cfg5.win 4).blk t).view.read (Elt Ideal) (nodeHost (V c main_v31) (V c main_v43) (V c main_arg14) (V c main_v44)) := by
  show (cfg5.win 4).cut (grid5.coords t) ((dat5 V c).after 4 t) = _
  rw [after5_4]
  unfold out5_4
  rw [View.canon_unit_zero hz]
  simp only [View.ld_unit_zero (S := S5000x64) hz, View.ld_unit_zero (S := S64x64) hz, View.ld_unit_zero (S := S1x64) hz]
  obtain ⟨a0, a1, b0, b1, c0, c1, d0, d1, o0, o1⟩ := idx_facts t
  funext j
  obtain ⟨p, q, rfl⟩ : ∃ (p : Fin 5000) (q : Fin 64), j = ix2 p q := ⟨j 0, j 1, eq_ix2 j⟩
  have hemb : ((cfg5.win 4).blk t).view.emb (ix2 p q) = ix2 (rowOf t p) q := by
    funext a; apply Fin.ext
    match a with
    | ⟨0, _⟩ => show win5_4.index t (0 : Fin 2) * 5000 + 1 * p.val = t.val * 5000 + p.val; omega
    | ⟨1, _⟩ => show win5_4.index t (1 : Fin 2) * 64 + 1 * q.val = q.val; omega
  show k5_pay1 (F := Ideal) _ _ _ _ (ix2 p q) = (nodeHost (V c main_v31) (V c main_v43) (V c main_arg14) (V c main_v44)) (((cfg5.win 4).blk t).view.emb (ix2 p q))
  rw [hemb, nodeHost_apply, pay5_apply]
  have h3 : iblk5 V c 3 t (ix2 (0 : Fin 1) q) = V c main_v44 (ix2 (0 : Fin 1) q) := by
    show V c main_v44 (((cfg5.win 3).blk t).view.emb (ix2 (0 : Fin 1) q)) = _
    refine congrArg _ (funext fun a => Fin.ext ?_)
    match a with
    | ⟨0, _⟩ => show win5_3.index t (0 : Fin 2) * 1 + 1 * ((0 : Fin 1)).val = ((0 : Fin 1)).val; omega
    | ⟨1, _⟩ => show win5_3.index t (1 : Fin 2) * 64 + 1 * (q).val = (q).val; omega
  have hd : rowDotAdd (iblk5 V c 0 t) (iblk5 V c 1 t) (iblk5 V c 2 t) p q
      = rowDotAdd (V c main_v31) (V c main_v43) (V c main_arg14) (rowOf t p) q := by
    unfold rowDotAdd
    refine Finset.sum_congr rfl fun k _ => ?_
    have e0 : iblk5 V c 0 t (ix2 p k) = V c main_v31 (ix2 (rowOf t p) k) := by
      show V c main_v31 (((cfg5.win 0).blk t).view.emb (ix2 p k)) = _
      refine congrArg _ (funext fun a => Fin.ext ?_)
      match a with
      | ⟨0, _⟩ => show win5_0.index t (0 : Fin 2) * 5000 + 1 * (p).val = t.val * 5000 + (p).val; omega
      | ⟨1, _⟩ => show win5_0.index t (1 : Fin 2) * 64 + 1 * (k).val = (k).val; omega
    have e1 : iblk5 V c 1 t (ix2 p k) = V c main_v43 (ix2 (rowOf t p) k) := by
      show V c main_v43 (((cfg5.win 1).blk t).view.emb (ix2 p k)) = _
      refine congrArg _ (funext fun a => Fin.ext ?_)
      match a with
      | ⟨0, _⟩ => show win5_1.index t (0 : Fin 2) * 5000 + 1 * (p).val = t.val * 5000 + (p).val; omega
      | ⟨1, _⟩ => show win5_1.index t (1 : Fin 2) * 64 + 1 * (k).val = (k).val; omega
    have e2 : iblk5 V c 2 t (ix2 k q) = V c main_arg14 (ix2 k q) := by
      show V c main_arg14 (((cfg5.win 2).blk t).view.emb (ix2 k q)) = _
      refine congrArg _ (funext fun a => Fin.ext ?_)
      match a with
      | ⟨0, _⟩ => show win5_2.index t (0 : Fin 2) * 64 + 1 * (k).val = (k).val; omega
      | ⟨1, _⟩ => show win5_2.index t (1 : Fin 2) * 64 + 1 * (q).val = (q).val; omega
    rw [e0, e1, e2]
  rw [hd, h3]

/-- An index of the output array is in point t's block iff each coordinate is in the block's range on its axis. -/
theorem mem_blk (t : Fin cfg5.N) (i : S100000x64.Idx) :
    i ∈ ((cfg5.win 4).blk t).view.set ↔ ∀ a : Fin 2, win5_4.index t a * S5000x64.size a ≤ (i a).val ∧ (i a).val < win5_4.index t a * S5000x64.size a + S5000x64.size a := by
  show i ∈ ((View.whole main_v45).slice (win5_4.rect t)).set ↔ _
  rw [View.set_slice_whole, Rect.mem_set_unit]
  exact Iff.rfl

/-- Every row of the output array lies in the block of the point numbered row / 5000: the blocks tile the array. -/
theorem cover (i : S100000x64.Idx) : ∃ t : Fin cfg5.N, (cfg5.win 4).flush t = true ∧ i ∈ ((cfg5.win 4).blk t).view.set := by
  have hi0 : (i 0).val < 100000 := (i 0).isLt
  have hi1 : (i 1).val < 64 := (i 1).isLt
  have hN : (i 0).val / 5000 < cfg5.N := by show (i 0).val / 5000 < grid5.N; rw [N_5]; omega
  obtain ⟨_, _, _, _, _, _, _, _, o0, o1⟩ := idx_facts ⟨(i 0).val / 5000, hN⟩
  have o0' : win5_4.index ⟨(i 0).val / 5000, hN⟩ (0 : Fin 2) = (i 0).val / 5000 := o0
  refine ⟨⟨(i 0).val / 5000, hN⟩, flush5_4 _, ?_⟩
  rw [mem_blk]
  intro a
  match a with
  | ⟨0, _⟩ => show win5_4.index ⟨(i 0).val / 5000, hN⟩ (0 : Fin 2) * 5000 ≤ (i 0).val ∧ (i 0).val < win5_4.index ⟨(i 0).val / 5000, hN⟩ (0 : Fin 2) * 5000 + 5000; omega
  | ⟨1, _⟩ => show win5_4.index ⟨(i 0).val / 5000, hN⟩ (1 : Fin 2) * 64 ≤ (i 1).val ∧ (i 1).val < win5_4.index ⟨(i 0).val / 5000, hN⟩ (1 : Fin 2) * 64 + 64; omega

/-- THE OUTPUT ARRAY after the region is the update stage of the arrays the region was entered with. -/
theorem final (c : Dev nD) : (dat5 V c).arrAt 4 cfg5.N = nodeHost (V c main_v31) (V c main_v43) (V c main_arg14) (V c main_v44) :=
  (dat5 V c).arrAt_eq_of_cover 4 _ (fun t _ => flushed_eq V c t) cover

end Cert.KernelRegion5

end
-- ==== Proof.Boundaries.lean ====
/-
  What each buffer holds at each of the thirteen segment boundaries of the idealized kernel program, as a function of
  the launch arguments — stated directly in the reference's own stage functions of those arguments.

  Three kinds of step. A host stretch computes its results from the buffers it reads and leaves every other buffer
  alone. A region leaves a buffer that is none of its arrays alone, leaves an input array as it found it, and leaves
  its output array at the stage (message or update) of the four arrays it was entered with. Following the program in
  order: the gathered source rows, the messages, their scatter-add onto the nodes, the updated features — three times —
  and then the pooling tail. The index arrays (the wrapped source indices, the destination indices) are computed once
  in the first stretch and carried along unchanged; the bias vectors enter each region as one-row matrices, which the
  kernel program makes by a reshape and the reference by a broadcast, the same matrix.

  At the last boundary the result buffer holds the reference's function of the eighteen launch arguments.
-/
import proofs.«179752_j27565100106143_1_alg».proof.Proof.Gen.KernelIdeal.Frame
import proofs.«179752_j27565100106143_1_alg».proof.Proof.Gen.ReferenceIdeal.Read
import proofs.«179752_j27565100106143_1_alg».proof.Proof.Stages
import proofs.«179752_j27565100106143_1_alg».proof.Proof.LibRowCast
import proofs.«179752_j27565100106143_1_alg».proof.Proof.Region0
import proofs.«179752_j27565100106143_1_alg».proof.Proof.Region1
import proofs.«179752_j27565100106143_1_alg».proof.Proof.Region2
import proofs.«179752_j27565100106143_1_alg».proof.Proof.Region3
import proofs.«179752_j27565100106143_1_alg».proof.Proof.Region4
import proofs.«179752_j27565100106143_1_alg».proof.Proof.Region5
import Idealize.ShloMosaic.PureOps.Ideal

set_option maxRecDepth 16384

noncomputable section

namespace Cert.KernelBoundaries

open Cert.KernelIdeal Cert.KernelIdeal.Gen Cert.ReferenceIdeal.Read Cert.Stages
open Idealize.ShloMosaic Idealize.ShloMosaic.TcCoe Idealize.ShloMosaic.StableHlo Idealize.SL.Sem
open Idealize.ShloMosaic.Pipeline (Dat)

variable (m : (ℓ : Loc nD τ sig) → Buf (Elt Ideal) ℓ) (ρ : Dev nD → PrngReg) (c : Dev nD)

/-! ## Boundary 1: after host stretch 0 -/

theorem k_arg0_1 : W1 m ρ c (Proc.devRef .tc main_arg0) = (m ((c : Thread nD τ).loc main_arg0)) := by
  show StableHlo.after hostOps0 (W0 m ρ c) (Proc.devRef .tc main_arg0) = _
  after_results
  all_goals rfl
theorem k_arg2_1 : W1 m ρ c (Proc.devRef .tc main_arg2) = (m ((c : Thread nD τ).loc main_arg2)) := by
  show StableHlo.after hostOps0 (W0 m ρ c) (Proc.devRef .tc main_arg2) = _
  after_results
  all_goals rfl
theorem k_arg3_1 : W1 m ρ c (Proc.devRef .tc main_arg3) = (m ((c : Thread nD τ).loc main_arg3)) := by
  show StableHlo.after hostOps0 (W0 m ρ c) (Proc.devRef .tc main_arg3) = _
  after_results
  all_goals rfl
theorem k_arg4_1 : W1 m ρ c (Proc.devRef .tc main_arg4) = (m ((c : Thread nD τ).loc main_arg4)) := by
  show StableHlo.after hostOps0 (W0 m ρ c) (Proc.devRef .tc main_arg4) = _
  after_results
  all_goals rfl
theorem k_arg6_1 : W1 m ρ c (Proc.devRef .tc main_arg6) = (m ((c : Thread nD τ).loc main_arg6)) := by
  show StableHlo.after hostOps0 (W0 m ρ c) (Proc.devRef .tc main_arg6) = _
  after_results
  all_goals rfl
theorem k_arg7_1 : W1 m ρ c (Proc.devRef .tc main_arg7) = (m ((c : Thread nD τ).loc main_arg7)) := by
  show StableHlo.after hostOps0 (W0 m ρ c) (Proc.devRef .tc main_arg7) = _
  after_results
  all_goals rfl
theorem k_arg8_1 : W1 m ρ c (Proc.devRef .tc main_arg8) = (m ((c : Thread nD τ).loc main_arg8)) := by
  show StableHlo.after hostOps0 (W0 m ρ c) (Proc.devRef .tc main_arg8) = _
  after_results
  all_goals rfl
theorem k_arg9_1 : W1 m ρ c (Proc.devRef .tc main_arg9) = (m ((c : Thread nD τ).loc main_arg9)) := by
  show StableHlo.after hostOps0 (W0 m ρ c) (Proc.devRef .tc main_arg9) = _
  after_results
  all_goals rfl
theorem k_arg10_1 : W1 m ρ c (Proc.devRef .tc main_arg10) = (m ((c : Thread nD τ).loc main_arg10)) := by
  show StableHlo.after hostOps0 (W0 m ρ c) (Proc.devRef .tc main_arg10) = _
  after_results
  all_goals rfl
theorem k_arg11_1 : W1 m ρ c (Proc.devRef .tc main_arg11) = (m ((c : Thread nD τ).loc main_arg11)) := by
  show StableHlo.after hostOps0 (W0 m ρ c) (Proc.devRef .tc main_arg11) = _
  after_results
  all_goals rfl
theorem k_arg12_1 : W1 m ρ c (Proc.devRef .tc main_arg12) = (m ((c : Thread nD τ).loc main_arg12)) := by
  show StableHlo.after hostOps0 (W0 m ρ c) (Proc.devRef .tc main_arg12) = _
  after_results
  all_goals rfl
theorem k_arg13_1 : W1 m ρ c (Proc.devRef .tc main_arg13) = (m ((c : Thread nD τ).loc main_arg13)) := by
  show StableHlo.after hostOps0 (W0 m ρ c) (Proc.devRef .tc main_arg13) = _
  after_results
  all_goals rfl
theorem k_arg14_1 : W1 m ρ c (Proc.devRef .tc main_arg14) = (m ((c : Thread nD τ).loc main_arg14)) := by
  show StableHlo.after hostOps0 (W0 m ρ c) (Proc.devRef .tc main_arg14) = _
  after_results
  all_goals rfl
theorem k_arg15_1 : W1 m ρ c (Proc.devRef .tc main_arg15) = (m ((c : Thread nD τ).loc main_arg15)) := by
  show StableHlo.after hostOps0 (W0 m ρ c) (Proc.devRef .tc main_arg15) = _
  after_results
  all_goals rfl
theorem k_arg16_1 : W1 m ρ c (Proc.devRef .tc main_arg16) = (m ((c : Thread nD τ).loc main_arg16)) := by
  show StableHlo.after hostOps0 (W0 m ρ c) (Proc.devRef .tc main_arg16) = _
  after_results
  all_goals rfl
theorem k_arg17_1 : W1 m ρ c (Proc.devRef .tc main_arg17) = (m ((c : Thread nD τ).loc main_arg17)) := by
  show StableHlo.after hostOps0 (W0 m ρ c) (Proc.devRef .tc main_arg17) = _
  after_results
  all_goals rfl
theorem k_v1_1 : W1 m ρ c (Proc.devRef .tc main_v1) = val_main_v1 (m ((c : Thread nD τ).loc main_arg1)) := by
  show StableHlo.after hostOps0 (W0 m ρ c) (Proc.devRef .tc main_v1) = _
  after_results
  all_goals rfl
theorem k_v3_1 : W1 m ρ c (Proc.devRef .tc main_v3) = val_main_v3 (m ((c : Thread nD τ).loc main_arg1)) := by
  show StableHlo.after hostOps0 (W0 m ρ c) (Proc.devRef .tc main_v3) = _
  after_results
  all_goals rfl
theorem k_v10_1 : W1 m ρ c (Proc.devRef .tc main_v10) = val_main_v10 (m ((c : Thread nD τ).loc main_arg0)) (m ((c : Thread nD τ).loc main_arg1)) := by
  show StableHlo.after hostOps0 (W0 m ρ c) (Proc.devRef .tc main_v10) = _
  after_results
  all_goals rfl
theorem k_v11_1 : W1 m ρ c (Proc.devRef .tc main_v11) = val_main_v13 (m ((c : Thread nD τ).loc main_arg5)) := by
  show StableHlo.after hostOps0 (W0 m ρ c) (Proc.devRef .tc main_v11) = _
  after_results
  exact Cert.LibRowCast.shapeCast_row_eq_broadcastInDim _ _ _

/-! ## Boundary 2: after region 0 -/

theorem k_arg0_2 : W2 m ρ c (Proc.devRef .tc main_arg0) = (m ((c : Thread nD τ).loc main_arg0)) :=
  (W2_of_ne m ρ c main_arg0 (by decide)).trans (k_arg0_1 m ρ c)
theorem k_arg2_2 : W2 m ρ c (Proc.devRef .tc main_arg2) = (m ((c : Thread nD τ).loc main_arg2)) :=
  (W2_arr m ρ c 1).trans ((((dat0 (V1 m ρ) c).arrAt_in 1 rfl _).trans (A_eq0 (V1 m ρ) c 1)).trans (k_arg2_1 m ρ c))
theorem k_arg3_2 : W2 m ρ c (Proc.devRef .tc main_arg3) = (m ((c : Thread nD τ).loc main_arg3)) :=
  (W2_of_ne m ρ c main_arg3 (by decide)).trans (k_arg3_1 m ρ c)
theorem k_arg6_2 : W2 m ρ c (Proc.devRef .tc main_arg6) = (m ((c : Thread nD τ).loc main_arg6)) :=
  (W2_of_ne m ρ c main_arg6 (by decide)).trans (k_arg6_1 m ρ c)
theorem k_arg7_2 : W2 m ρ c (Proc.devRef .tc main_arg7) = (m ((c : Thread nD τ).loc main_arg7)) :=
  (W2_of_ne m ρ c main_arg7 (by decide)).trans (k_arg7_1 m ρ c)
theorem k_arg8_2 : W2 m ρ c (Proc.devRef .tc main_arg8) = (m ((c : Thread nD τ).loc main_arg8)) :=
  (W2_of_ne m ρ c main_arg8 (by decide)).trans (k_arg8_1 m ρ c)
theorem k_arg9_2 : W2 m ρ c (Proc.devRef .tc main_arg9) = (m ((c : Thread nD τ).loc main_arg9)) :=
  (W2_of_ne m ρ c main_arg9 (by decide)).trans (k_arg9_1 m ρ c)
theorem k_arg10_2 : W2 m ρ c (Proc.devRef .tc main_arg10) = (m ((c : Thread nD τ).loc main_arg10)) :=
  (W2_of_ne m ρ c main_arg10 (by decide)).trans (k_arg10_1 m ρ c)
theorem k_arg11_2 : W2 m ρ c (Proc.devRef .tc main_arg11) = (m ((c : Thread nD τ).loc main_arg11)) :=
  (W2_of_ne m ρ c main_arg11 (by decide)).trans (k_arg11_1 m ρ c)
theorem k_arg12_2 : W2 m ρ c (Proc.devRef .tc main_arg12) = (m ((c : Thread nD τ).loc main_arg12)) :=
  (W2_of_ne m ρ c main_arg12 (by decide)).trans (k_arg12_1 m ρ c)
theorem k_arg13_2 : W2 m ρ c (Proc.devRef .tc main_arg13) = (m ((c : Thread nD τ).loc main_arg13)) :=
  (W2_of_ne m ρ c main_arg13 (by decide)).trans (k_arg13_1 m ρ c)
theorem k_arg14_2 : W2 m ρ c (Proc.devRef .tc main_arg14) = (m ((c : Thread nD τ).loc main_arg14)) :=
  (W2_of_ne m ρ c main_arg14 (by decide)).trans (k_arg14_1 m ρ c)
theorem k_arg15_2 : W2 m ρ c (Proc.devRef .tc main_arg15) = (m ((c : Thread nD τ).loc main_arg15)) :=
  (W2_of_ne m ρ c main_arg15 (by decide)).trans (k_arg15_1 m ρ c)
theorem k_arg16_2 : W2 m ρ c (Proc.devRef .tc main_arg16) = (m ((c : Thread nD τ).loc main_arg16)) :=
  (W2_of_ne m ρ c main_arg16 (by decide)).trans (k_arg16_1 m ρ c)
theorem k_arg17_2 : W2 m ρ c (Proc.devRef .tc main_arg17) = (m ((c : Thread nD τ).loc main_arg17)) :=
  (W2_of_ne m ρ c main_arg17 (by decide)).trans (k_arg17_1 m ρ c)
theorem k_v1_2 : W2 m ρ c (Proc.devRef .tc main_v1) = val_main_v1 (m ((c : Thread nD τ).loc main_arg1)) :=
  (W2_of_ne m ρ c main_v1 (by decide)).trans (k_v1_1 m ρ c)
theorem k_v3_2 : W2 m ρ c (Proc.devRef .tc main_v3) = val_main_v3 (m ((c : Thread nD τ).loc main_arg1)) :=
  (W2_of_ne m ρ c main_v3 (by decide)).trans (k_v3_1 m ρ c)
theorem k_v12_2 : W2 m ρ c (Proc.devRef .tc main_v12) = val_main_v16 (m ((c : Thread nD τ).loc main_arg0)) (m ((c : Thread nD τ).loc main_arg1)) (m ((c : Thread nD τ).loc main_arg2)) (m ((c : Thread nD τ).loc main_arg4)) (m ((c : Thread nD τ).loc main_arg5)) := by
  refine ((W2_arr m ρ c 4).trans (Cert.KernelRegion0.final (V1 m ρ) c)).trans ?_
  show edgeHost (W1 m ρ c (Proc.devRef .tc main_v10)) (W1 m ρ c (Proc.devRef .tc main_arg2)) (W1 m ρ c (Proc.devRef .tc main_arg4)) (W1 m ρ c (Proc.devRef .tc main_v11)) = _
  rw [k_v10_1 m ρ c, k_arg2_1 m ρ c, k_arg4_1 m ρ c, k_v11_1 m ρ c]
  rfl

/-! ## Boundary 3: after host stretch 1 -/

theorem k_arg0_3 : W3 m ρ c (Proc.devRef .tc main_arg0) = (m ((c : Thread nD τ).loc main_arg0)) := by
  show StableHlo.after hostOps1 (W2 m ρ c) (Proc.devRef .tc main_arg0) = _
  after_results
  exact k_arg0_2 m ρ c
theorem k_arg2_3 : W3 m ρ c (Proc.devRef .tc main_arg2) = (m ((c : Thread nD τ).loc main_arg2)) := by
  show StableHlo.after hostOps1 (W2 m ρ c) (Proc.devRef .tc main_arg2) = _
  after_results
  exact k_arg2_2 m ρ c
theorem k_arg3_3 : W3 m ρ c (Proc.devRef .tc main_arg3) = (m ((c : Thread nD τ).loc main_arg3)) := by
  show StableHlo.after hostOps1 (W2 m ρ c) (Proc.devRef .tc main_arg3) = _
  after_results
  exact k_arg3_2 m ρ c
theorem k_arg6_3 : W3 m ρ c (Proc.devRef .tc main_arg6) = (m ((c : Thread nD τ).loc main_arg6)) := by
  show StableHlo.after hostOps1 (W2 m ρ c) (Proc.devRef .tc main_arg6) = _
  after_results
  exact k_arg6_2 m ρ c
theorem k_arg8_3 : W3 m ρ c (Proc.devRef .tc main_arg8) = (m ((c : Thread nD τ).loc main_arg8)) := by
  show StableHlo.after hostOps1 (W2 m ρ c) (Proc.devRef .tc main_arg8) = _
  after_results
  exact k_arg8_2 m ρ c
theorem k_arg9_3 : W3 m ρ c (Proc.devRef .tc main_arg9) = (m ((c : Thread nD τ).loc main_arg9)) := by
  show StableHlo.after hostOps1 (W2 m ρ c) (Proc.devRef .tc main_arg9) = _
  after_results
  exact k_arg9_2 m ρ c
theorem k_arg10_3 : W3 m ρ c (Proc.devRef .tc main_arg10) = (m ((c : Thread nD τ).loc main_arg10)) := by
  show StableHlo.after hostOps1 (W2 m ρ c) (Proc.devRef .tc main_arg10) = _
  after_results
  exact k_arg10_2 m ρ c
theorem k_arg11_3 : W3 m ρ c (Proc.devRef .tc main_arg11) = (m ((c : Thread nD τ).loc main_arg11)) := by
  show StableHlo.after hostOps1 (W2 m ρ c) (Proc.devRef .tc main_arg11) = _
  after_results
  exact k_arg11_2 m ρ c
theorem k_arg12_3 : W3 m ρ c (Proc.devRef .tc main_arg12) = (m ((c : Thread nD τ).loc main_arg12)) := by
  show StableHlo.after hostOps1 (W2 m ρ c) (Proc.devRef .tc main_arg12) = _
  after_results
  exact k_arg12_2 m ρ c
theorem k_arg13_3 : W3 m ρ c (Proc.devRef .tc main_arg13) = (m ((c : Thread nD τ).loc main_arg13)) := by
  show StableHlo.after hostOps1 (W2 m ρ c) (Proc.devRef .tc main_arg13) = _
  after_results
  exact k_arg13_2 m ρ c
theorem k_arg14_3 : W3 m ρ c (Proc.devRef .tc main_arg14) = (m ((c : Thread nD τ).loc main_arg14)) := by
  show StableHlo.after hostOps1 (W2 m ρ c) (Proc.devRef .tc main_arg14) = _
  after_results
  exact k_arg14_2 m ρ c
theorem k_arg15_3 : W3 m ρ c (Proc.devRef .tc main_arg15) = (m ((c : Thread nD τ).loc main_arg15)) := by
  show StableHlo.after hostOps1 (W2 m ρ c) (Proc.devRef .tc main_arg15) = _
  after_results
  exact k_arg15_2 m ρ c
theorem k_arg16_3 : W3 m ρ c (Proc.devRef .tc main_arg16) = (m ((c : Thread nD τ).loc main_arg16)) := by
  show StableHlo.after hostOps1 (W2 m ρ c) (Proc.devRef .tc main_arg16) = _
  after_results
  exact k_arg16_2 m ρ c
theorem k_arg17_3 : W3 m ρ c (Proc.devRef .tc main_arg17) = (m ((c : Thread nD τ).loc main_arg17)) := by
  show StableHlo.after hostOps1 (W2 m ρ c) (Proc.devRef .tc main_arg17) = _
  after_results
  exact k_arg17_2 m ρ c
theorem k_v1_3 : W3 m ρ c (Proc.devRef .tc main_v1) = val_main_v1 (m ((c : Thread nD τ).loc main_arg1)) := by
  show StableHlo.after hostOps1 (W2 m ρ c) (Proc.devRef .tc main_v1) = _
  after_results
  exact k_v1_2 m ρ c
theorem k_v3_3 : W3 m ρ c (Proc.devRef .tc main_v3) = val_main_v3 (m ((c : Thread nD τ).loc main_arg1)) := by
  show StableHlo.after hostOps1 (W2 m ρ c) (Proc.devRef .tc main_v3) = _
  after_results
  exact k_v3_2 m ρ c
theorem k_v15_3 : W3 m ρ c (Proc.devRef .tc main_v15) = val_main_v19 (m ((c : Thread nD τ).loc main_arg0)) (m ((c : Thread nD τ).loc main_arg1)) (m ((c : Thread nD τ).loc main_arg2)) (m ((c : Thread nD τ).loc main_arg4)) (m ((c : Thread nD τ).loc main_arg5)) := by
  show StableHlo.after hostOps1 (W2 m ρ c) (Proc.devRef .tc main_v15) = _
  after_results
  rw [k_v3_2 m ρ c, k_v12_2 m ρ c]
  rfl
theorem k_v16_3 : W3 m ρ c (Proc.devRef .tc main_v16) = val_main_v24 (m ((c : Thread nD τ).loc main_arg7)) := by
  show StableHlo.after hostOps1 (W2 m ρ c) (Proc.devRef .tc main_v16) = _
  after_results
  rw [k_arg7_2 m ρ c]
  exact Cert.LibRowCast.shapeCast_row_eq_broadcastInDim _ _ _

/-! ## Boundary 4: after region 1 -/

theorem k_arg2_4 : W4 m ρ c (Proc.devRef .tc main_arg2) = (m ((c : Thread nD τ).loc main_arg2)) :=
  (W4_of_ne m ρ c main_arg2 (by decide)).trans (k_arg2_3 m ρ c)
theorem k_arg3_4 : W4 m ρ c (Proc.devRef .tc main_arg3) = (m ((c : Thread nD τ).loc main_arg3)) :=
  (W4_of_ne m ρ c main_arg3 (by decide)).trans (k_arg3_3 m ρ c)
theorem k_arg8_4 : W4 m ρ c (Proc.devRef .tc main_arg8) = (m ((c : Thread nD τ).loc main_arg8)) :=
  (W4_of_ne m ρ c main_arg8 (by decide)).trans (k_arg8_3 m ρ c)
theorem k_arg9_4 : W4 m ρ c (Proc.devRef .tc main_arg9) = (m ((c : Thread nD τ).loc main_arg9)) :=
  (W4_of_ne m ρ c main_arg9 (by decide)).trans (k_arg9_3 m ρ c)
theorem k_arg10_4 : W4 m ρ c (Proc.devRef .tc main_arg10) = (m ((c : Thread nD τ).loc main_arg10)) :=
  (W4_of_ne m ρ c main_arg10 (by decide)).trans (k_arg10_3 m ρ c)
theorem k_arg11_4 : W4 m ρ c (Proc.devRef .tc main_arg11) = (m ((c : Thread nD τ).loc main_arg11)) :=
  (W4_of_ne m ρ c main_arg11 (by decide)).trans (k_arg11_3 m ρ c)
theorem k_arg12_4 : W4 m ρ c (Proc.devRef .tc main_arg12) = (m ((c : Thread nD τ).loc main_arg12)) :=
  (W4_of_ne m ρ c main_arg12 (by decide)).trans (k_arg12_3 m ρ c)
theorem k_arg13_4 : W4 m ρ c (Proc.devRef .tc main_arg13) = (m ((c : Thread nD τ).loc main_arg13)) :=
  (W4_of_ne m ρ c main_arg13 (by decide)).trans (k_arg13_3 m ρ c)
theorem k_arg14_4 : W4 m ρ c (Proc.devRef .tc main_arg14) = (m ((c : Thread nD τ).loc main_arg14)) :=
  (W4_of_ne m ρ c main_arg14 (by decide)).trans (k_arg14_3 m ρ c)
theorem k_arg15_4 : W4 m ρ c (Proc.devRef .tc main_arg15) = (m ((c : Thread nD τ).loc main_arg15)) :=
  (W4_of_ne m ρ c main_arg15 (by decide)).trans (k_arg15_3 m ρ c)
theorem k_arg16_4 : W4 m ρ c (Proc.devRef .tc main_arg16) = (m ((c : Thread nD τ).loc main_arg16)) :=
  (W4_of_ne m ρ c main_arg16 (by decide)).trans (k_arg16_3 m ρ c)
theorem k_arg17_4 : W4 m ρ c (Proc.devRef .tc main_arg17) = (m ((c : Thread nD τ).loc main_arg17)) :=
  (W4_of_ne m ρ c main_arg17 (by decide)).trans (k_arg17_3 m ρ c)
theorem k_v1_4 : W4 m ρ c (Proc.devRef .tc main_v1) = val_main_v1 (m ((c : Thread nD τ).loc main_arg1)) :=
  (W4_of_ne m ρ c main_v1 (by decide)).trans (k_v1_3 m ρ c)
theorem k_v3_4 : W4 m ρ c (Proc.devRef .tc main_v3) = val_main_v3 (m ((c : Thread nD τ).loc main_arg1)) :=
  (W4_of_ne m ρ c main_v3 (by decide)).trans (k_v3_3 m ρ c)
theorem k_v17_4 : W4 m ρ c (Proc.devRef .tc main_v17) = val_main_v27 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  refine ((W4_arr m ρ c 4).trans (Cert.KernelRegion1.final (V3 m ρ) c)).trans ?_
  show nodeHost (W3 m ρ c (Proc.devRef .tc main_arg0)) (W3 m ρ c (Proc.devRef .tc main_v15)) (W3 m ρ c (Proc.devRef .tc main_arg6)) (W3 m ρ c (Proc.devRef .tc main_v16)) = _
  rw [k_arg0_3 m ρ c, k_v15_3 m ρ c, k_arg6_3 m ρ c, k_v16_3 m ρ c]
  rfl

/-! ## Boundary 5: after host stretch 2 -/

theorem k_arg2_5 : W5 m ρ c (Proc.devRef .tc main_arg2) = (m ((c : Thread nD τ).loc main_arg2)) := by
  show StableHlo.after hostOps2 (W4 m ρ c) (Proc.devRef .tc main_arg2) = _
  after_results
  exact k_arg2_4 m ρ c
theorem k_arg3_5 : W5 m ρ c (Proc.devRef .tc main_arg3) = (m ((c : Thread nD τ).loc main_arg3)) := by
  show StableHlo.after hostOps2 (W4 m ρ c) (Proc.devRef .tc main_arg3) = _
  after_results
  exact k_arg3_4 m ρ c
theorem k_arg8_5 : W5 m ρ c (Proc.devRef .tc main_arg8) = (m ((c : Thread nD τ).loc main_arg8)) := by
  show StableHlo.after hostOps2 (W4 m ρ c) (Proc.devRef .tc main_arg8) = _
  after_results
  exact k_arg8_4 m ρ c
theorem k_arg10_5 : W5 m ρ c (Proc.devRef .tc main_arg10) = (m ((c : Thread nD τ).loc main_arg10)) := by
  show StableHlo.after hostOps2 (W4 m ρ c) (Proc.devRef .tc main_arg10) = _
  after_results
  exact k_arg10_4 m ρ c
theorem k_arg11_5 : W5 m ρ c (Proc.devRef .tc main_arg11) = (m ((c : Thread nD τ).loc main_arg11)) := by
  show StableHlo.after hostOps2 (W4 m ρ c) (Proc.devRef .tc main_arg11) = _
  after_results
  exact k_arg11_4 m ρ c
theorem k_arg12_5 : W5 m ρ c (Proc.devRef .tc main_arg12) = (m ((c : Thread nD τ).loc main_arg12)) := by
  show StableHlo.after hostOps2 (W4 m ρ c) (Proc.devRef .tc main_arg12) = _
  after_results
  exact k_arg12_4 m ρ c
theorem k_arg13_5 : W5 m ρ c (Proc.devRef .tc main_arg13) = (m ((c : Thread nD τ).loc main_arg13)) := by
  show StableHlo.after hostOps2 (W4 m ρ c) (Proc.devRef .tc main_arg13) = _
  after_results
  exact k_arg13_4 m ρ c
theorem k_arg14_5 : W5 m ρ c (Proc.devRef .tc main_arg14) = (m ((c : Thread nD τ).loc main_arg14)) := by
  show StableHlo.after hostOps2 (W4 m ρ c) (Proc.devRef .tc main_arg14) = _
  after_results
  exact k_arg14_4 m ρ c
theorem k_arg15_5 : W5 m ρ c (Proc.devRef .tc main_arg15) = (m ((c : Thread nD τ).loc main_arg15)) := by
  show StableHlo.after hostOps2 (W4 m ρ c) (Proc.devRef .tc main_arg15) = _
  after_results
  exact k_arg15_4 m ρ c
theorem k_arg16_5 : W5 m ρ c (Proc.devRef .tc main_arg16) = (m ((c : Thread nD τ).loc main_arg16)) := by
  show StableHlo.after hostOps2 (W4 m ρ c) (Proc.devRef .tc main_arg16) = _
  after_results
  exact k_arg16_4 m ρ c
theorem k_arg17_5 : W5 m ρ c (Proc.devRef .tc main_arg17) = (m ((c : Thread nD τ).loc main_arg17)) := by
  show StableHlo.after hostOps2 (W4 m ρ c) (Proc.devRef .tc main_arg17) = _
  after_results
  exact k_arg17_4 m ρ c
theorem k_v1_5 : W5 m ρ c (Proc.devRef .tc main_v1) = val_main_v1 (m ((c : Thread nD τ).loc main_arg1)) := by
  show StableHlo.after hostOps2 (W4 m ρ c) (Proc.devRef .tc main_v1) = _
  after_results
  exact k_v1_4 m ρ c
theorem k_v3_5 : W5 m ρ c (Proc.devRef .tc main_v3) = val_main_v3 (m ((c : Thread nD τ).loc main_arg1)) := by
  show StableHlo.after hostOps2 (W4 m ρ c) (Proc.devRef .tc main_v3) = _
  after_results
  exact k_v3_4 m ρ c
theorem k_v17_5 : W5 m ρ c (Proc.devRef .tc main_v17) = val_main_v27 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  show StableHlo.after hostOps2 (W4 m ρ c) (Proc.devRef .tc main_v17) = _
  after_results
  exact k_v17_4 m ρ c
theorem k_v24_5 : W5 m ρ c (Proc.devRef .tc main_v24) = val_main_v34 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  show StableHlo.after hostOps2 (W4 m ρ c) (Proc.devRef .tc main_v24) = _
  after_results
  rw [k_v17_4 m ρ c, k_v1_4 m ρ c]
  rfl
theorem k_v25_5 : W5 m ρ c (Proc.devRef .tc main_v25) = val_main_v37 (m ((c : Thread nD τ).loc main_arg9)) := by
  show StableHlo.after hostOps2 (W4 m ρ c) (Proc.devRef .tc main_v25) = _
  after_results
  rw [k_arg9_4 m ρ c]
  exact Cert.LibRowCast.shapeCast_row_eq_broadcastInDim _ _ _

/-! ## Boundary 6: after region 2 -/

theorem k_arg2_6 : W6 m ρ c (Proc.devRef .tc main_arg2) = (m ((c : Thread nD τ).loc main_arg2)) :=
  (W6_arr m ρ c 1).trans ((((dat2 (V5 m ρ) c).arrAt_in 1 rfl _).trans (A_eq2 (V5 m ρ) c 1)).trans (k_arg2_5 m ρ c))
theorem k_arg3_6 : W6 m ρ c (Proc.devRef .tc main_arg3) = (m ((c : Thread nD τ).loc main_arg3)) :=
  (W6_of_ne m ρ c main_arg3 (by decide)).trans (k_arg3_5 m ρ c)
theorem k_arg10_6 : W6 m ρ c (Proc.devRef .tc main_arg10) = (m ((c : Thread nD τ).loc main_arg10)) :=
  (W6_of_ne m ρ c main_arg10 (by decide)).trans (k_arg10_5 m ρ c)
theorem k_arg11_6 : W6 m ρ c (Proc.devRef .tc main_arg11) = (m ((c : Thread nD τ).loc main_arg11)) :=
  (W6_of_ne m ρ c main_arg11 (by decide)).trans (k_arg11_5 m ρ c)
theorem k_arg12_6 : W6 m ρ c (Proc.devRef .tc main_arg12) = (m ((c : Thread nD τ).loc main_arg12)) :=
  (W6_of_ne m ρ c main_arg12 (by decide)).trans (k_arg12_5 m ρ c)
theorem k_arg13_6 : W6 m ρ c (Proc.devRef .tc main_arg13) = (m ((c : Thread nD τ).loc main_arg13)) :=
  (W6_of_ne m ρ c main_arg13 (by decide)).trans (k_arg13_5 m ρ c)
theorem k_arg14_6 : W6 m ρ c (Proc.devRef .tc main_arg14) = (m ((c : Thread nD τ).loc main_arg14)) :=
  (W6_of_ne m ρ c main_arg14 (by decide)).trans (k_arg14_5 m ρ c)
theorem k_arg15_6 : W6 m ρ c (Proc.devRef .tc main_arg15) = (m ((c : Thread nD τ).loc main_arg15)) :=
  (W6_of_ne m ρ c main_arg15 (by decide)).trans (k_arg15_5 m ρ c)
theorem k_arg16_6 : W6 m ρ c (Proc.devRef .tc main_arg16) = (m ((c : Thread nD τ).loc main_arg16)) :=
  (W6_of_ne m ρ c main_arg16 (by decide)).trans (k_arg16_5 m ρ c)
theorem k_arg17_6 : W6 m ρ c (Proc.devRef .tc main_arg17) = (m ((c : Thread nD τ).loc main_arg17)) :=
  (W6_of_ne m ρ c main_arg17 (by decide)).trans (k_arg17_5 m ρ c)
theorem k_v1_6 : W6 m ρ c (Proc.devRef .tc main_v1) = val_main_v1 (m ((c : Thread nD τ).loc main_arg1)) :=
  (W6_of_ne m ρ c main_v1 (by decide)).trans (k_v1_5 m ρ c)
theorem k_v3_6 : W6 m ρ c (Proc.devRef .tc main_v3) = val_main_v3 (m ((c : Thread nD τ).loc main_arg1)) :=
  (W6_of_ne m ρ c main_v3 (by decide)).trans (k_v3_5 m ρ c)
theorem k_v17_6 : W6 m ρ c (Proc.devRef .tc main_v17) = val_main_v27 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) :=
  (W6_of_ne m ρ c main_v17 (by decide)).trans (k_v17_5 m ρ c)
theorem k_v26_6 : W6 m ρ c (Proc.devRef .tc main_v26) = val_main_v40 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine ((W6_arr m ρ c 4).trans (Cert.KernelRegion2.final (V5 m ρ) c)).trans ?_
  show edgeHost (W5 m ρ c (Proc.devRef .tc main_v24)) (W5 m ρ c (Proc.devRef .tc main_arg2)) (W5 m ρ c (Proc.devRef .tc main_arg8)) (W5 m ρ c (Proc.devRef .tc main_v25)) = _
  rw [k_v24_5 m ρ c, k_arg2_5 m ρ c, k_arg8_5 m ρ c, k_v25_5 m ρ c]
  rfl

/-! ## Boundary 7: after host stretch 3 -/

theorem k_arg2_7 : W7 m ρ c (Proc.devRef .tc main_arg2) = (m ((c : Thread nD τ).loc main_arg2)) := by
  show StableHlo.after hostOps3 (W6 m ρ c) (Proc.devRef .tc main_arg2) = _
  after_results
  exact k_arg2_6 m ρ c
theorem k_arg3_7 : W7 m ρ c (Proc.devRef .tc main_arg3) = (m ((c : Thread nD τ).loc main_arg3)) := by
  show StableHlo.after hostOps3 (W6 m ρ c) (Proc.devRef .tc main_arg3) = _
  after_results
  exact k_arg3_6 m ρ c
theorem k_arg10_7 : W7 m ρ c (Proc.devRef .tc main_arg10) = (m ((c : Thread nD τ).loc main_arg10)) := by
  show StableHlo.after hostOps3 (W6 m ρ c) (Proc.devRef .tc main_arg10) = _
  after_results
  exact k_arg10_6 m ρ c
theorem k_arg12_7 : W7 m ρ c (Proc.devRef .tc main_arg12) = (m ((c : Thread nD τ).loc main_arg12)) := by
  show StableHlo.after hostOps3 (W6 m ρ c) (Proc.devRef .tc main_arg12) = _
  after_results
  exact k_arg12_6 m ρ c
theorem k_arg13_7 : W7 m ρ c (Proc.devRef .tc main_arg13) = (m ((c : Thread nD τ).loc main_arg13)) := by
  show StableHlo.after hostOps3 (W6 m ρ c) (Proc.devRef .tc main_arg13) = _
  after_results
  exact k_arg13_6 m ρ c
theorem k_arg14_7 : W7 m ρ c (Proc.devRef .tc main_arg14) = (m ((c : Thread nD τ).loc main_arg14)) := by
  show StableHlo.after hostOps3 (W6 m ρ c) (Proc.devRef .tc main_arg14) = _
  after_results
  exact k_arg14_6 m ρ c
theorem k_arg15_7 : W7 m ρ c (Proc.devRef .tc main_arg15) = (m ((c : Thread nD τ).loc main_arg15)) := by
  show StableHlo.after hostOps3 (W6 m ρ c) (Proc.devRef .tc main_arg15) = _
  after_results
  exact k_arg15_6 m ρ c
theorem k_arg16_7 : W7 m ρ c (Proc.devRef .tc main_arg16) = (m ((c : Thread nD τ).loc main_arg16)) := by
  show StableHlo.after hostOps3 (W6 m ρ c) (Proc.devRef .tc main_arg16) = _
  after_results
  exact k_arg16_6 m ρ c
theorem k_arg17_7 : W7 m ρ c (Proc.devRef .tc main_arg17) = (m ((c : Thread nD τ).loc main_arg17)) := by
  show StableHlo.after hostOps3 (W6 m ρ c) (Proc.devRef .tc main_arg17) = _
  after_results
  exact k_arg17_6 m ρ c
theorem k_v1_7 : W7 m ρ c (Proc.devRef .tc main_v1) = val_main_v1 (m ((c : Thread nD τ).loc main_arg1)) := by
  show StableHlo.after hostOps3 (W6 m ρ c) (Proc.devRef .tc main_v1) = _
  after_results
  exact k_v1_6 m ρ c
theorem k_v3_7 : W7 m ρ c (Proc.devRef .tc main_v3) = val_main_v3 (m ((c : Thread nD τ).loc main_arg1)) := by
  show StableHlo.after hostOps3 (W6 m ρ c) (Proc.devRef .tc main_v3) = _
  after_results
  exact k_v3_6 m ρ c
theorem k_v17_7 : W7 m ρ c (Proc.devRef .tc main_v17) = val_main_v27 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  show StableHlo.after hostOps3 (W6 m ρ c) (Proc.devRef .tc main_v17) = _
  after_results
  exact k_v17_6 m ρ c
theorem k_v29_7 : W7 m ρ c (Proc.devRef .tc main_v29) = val_main_v43 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps3 (W6 m ρ c) (Proc.devRef .tc main_v29) = _
  after_results
  rw [k_v3_6 m ρ c, k_v26_6 m ρ c]
  rfl
theorem k_v30_7 : W7 m ρ c (Proc.devRef .tc main_v30) = val_main_v48 (m ((c : Thread nD τ).loc main_arg11)) := by
  show StableHlo.after hostOps3 (W6 m ρ c) (Proc.devRef .tc main_v30) = _
  after_results
  rw [k_arg11_6 m ρ c]
  exact Cert.LibRowCast.shapeCast_row_eq_broadcastInDim _ _ _

/-! ## Boundary 8: after region 3 -/

theorem k_arg2_8 : W8 m ρ c (Proc.devRef .tc main_arg2) = (m ((c : Thread nD τ).loc main_arg2)) :=
  (W8_of_ne m ρ c main_arg2 (by decide)).trans (k_arg2_7 m ρ c)
theorem k_arg3_8 : W8 m ρ c (Proc.devRef .tc main_arg3) = (m ((c : Thread nD τ).loc main_arg3)) :=
  (W8_of_ne m ρ c main_arg3 (by decide)).trans (k_arg3_7 m ρ c)
theorem k_arg12_8 : W8 m ρ c (Proc.devRef .tc main_arg12) = (m ((c : Thread nD τ).loc main_arg12)) :=
  (W8_of_ne m ρ c main_arg12 (by decide)).trans (k_arg12_7 m ρ c)
theorem k_arg13_8 : W8 m ρ c (Proc.devRef .tc main_arg13) = (m ((c : Thread nD τ).loc main_arg13)) :=
  (W8_of_ne m ρ c main_arg13 (by decide)).trans (k_arg13_7 m ρ c)
theorem k_arg14_8 : W8 m ρ c (Proc.devRef .tc main_arg14) = (m ((c : Thread nD τ).loc main_arg14)) :=
  (W8_of_ne m ρ c main_arg14 (by decide)).trans (k_arg14_7 m ρ c)
theorem k_arg15_8 : W8 m ρ c (Proc.devRef .tc main_arg15) = (m ((c : Thread nD τ).loc main_arg15)) :=
  (W8_of_ne m ρ c main_arg15 (by decide)).trans (k_arg15_7 m ρ c)
theorem k_arg16_8 : W8 m ρ c (Proc.devRef .tc main_arg16) = (m ((c : Thread nD τ).loc main_arg16)) :=
  (W8_of_ne m ρ c main_arg16 (by decide)).trans (k_arg16_7 m ρ c)
theorem k_arg17_8 : W8 m ρ c (Proc.devRef .tc main_arg17) = (m ((c : Thread nD τ).loc main_arg17)) :=
  (W8_of_ne m ρ c main_arg17 (by decide)).trans (k_arg17_7 m ρ c)
theorem k_v1_8 : W8 m ρ c (Proc.devRef .tc main_v1) = val_main_v1 (m ((c : Thread nD τ).loc main_arg1)) :=
  (W8_of_ne m ρ c main_v1 (by decide)).trans (k_v1_7 m ρ c)
theorem k_v3_8 : W8 m ρ c (Proc.devRef .tc main_v3) = val_main_v3 (m ((c : Thread nD τ).loc main_arg1)) :=
  (W8_of_ne m ρ c main_v3 (by decide)).trans (k_v3_7 m ρ c)
theorem k_v31_8 : W8 m ρ c (Proc.devRef .tc main_v31) = val_main_v51 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine ((W8_arr m ρ c 4).trans (Cert.KernelRegion3.final (V7 m ρ) c)).trans ?_
  show nodeHost (W7 m ρ c (Proc.devRef .tc main_v17)) (W7 m ρ c (Proc.devRef .tc main_v29)) (W7 m ρ c (Proc.devRef .tc main_arg10)) (W7 m ρ c (Proc.devRef .tc main_v30)) = _
  rw [k_v17_7 m ρ c, k_v29_7 m ρ c, k_arg10_7 m ρ c, k_v30_7 m ρ c]
  rfl

/-! ## Boundary 9: after host stretch 4 -/

theorem k_arg2_9 : W9 m ρ c (Proc.devRef .tc main_arg2) = (m ((c : Thread nD τ).loc main_arg2)) := by
  show StableHlo.after hostOps4 (W8 m ρ c) (Proc.devRef .tc main_arg2) = _
  after_results
  exact k_arg2_8 m ρ c
theorem k_arg3_9 : W9 m ρ c (Proc.devRef .tc main_arg3) = (m ((c : Thread nD τ).loc main_arg3)) := by
  show StableHlo.after hostOps4 (W8 m ρ c) (Proc.devRef .tc main_arg3) = _
  after_results
  exact k_arg3_8 m ρ c
theorem k_arg12_9 : W9 m ρ c (Proc.devRef .tc main_arg12) = (m ((c : Thread nD τ).loc main_arg12)) := by
  show StableHlo.after hostOps4 (W8 m ρ c) (Proc.devRef .tc main_arg12) = _
  after_results
  exact k_arg12_8 m ρ c
theorem k_arg14_9 : W9 m ρ c (Proc.devRef .tc main_arg14) = (m ((c : Thread nD τ).loc main_arg14)) := by
  show StableHlo.after hostOps4 (W8 m ρ c) (Proc.devRef .tc main_arg14) = _
  after_results
  exact k_arg14_8 m ρ c
theorem k_arg15_9 : W9 m ρ c (Proc.devRef .tc main_arg15) = (m ((c : Thread nD τ).loc main_arg15)) := by
  show StableHlo.after hostOps4 (W8 m ρ c) (Proc.devRef .tc main_arg15) = _
  after_results
  exact k_arg15_8 m ρ c
theorem k_arg16_9 : W9 m ρ c (Proc.devRef .tc main_arg16) = (m ((c : Thread nD τ).loc main_arg16)) := by
  show StableHlo.after hostOps4 (W8 m ρ c) (Proc.devRef .tc main_arg16) = _
  after_results
  exact k_arg16_8 m ρ c
theorem k_arg17_9 : W9 m ρ c (Proc.devRef .tc main_arg17) = (m ((c : Thread nD τ).loc main_arg17)) := by
  show StableHlo.after hostOps4 (W8 m ρ c) (Proc.devRef .tc main_arg17) = _
  after_results
  exact k_arg17_8 m ρ c
theorem k_v3_9 : W9 m ρ c (Proc.devRef .tc main_v3) = val_main_v3 (m ((c : Thread nD τ).loc main_arg1)) := by
  show StableHlo.after hostOps4 (W8 m ρ c) (Proc.devRef .tc main_v3) = _
  after_results
  exact k_v3_8 m ρ c
theorem k_v31_9 : W9 m ρ c (Proc.devRef .tc main_v31) = val_main_v51 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps4 (W8 m ρ c) (Proc.devRef .tc main_v31) = _
  after_results
  exact k_v31_8 m ρ c
set_option maxHeartbeats 4000000 in
theorem k_v38_9 : W9 m ρ c (Proc.devRef .tc main_v38) = val_main_v58 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps4 (W8 m ρ c) (Proc.devRef .tc main_v38) = _
  after_results
  rw [k_v31_8 m ρ c, k_v1_8 m ρ c]
  rfl
theorem k_v39_9 : W9 m ρ c (Proc.devRef .tc main_v39) = val_main_v61 (m ((c : Thread nD τ).loc main_arg13)) := by
  show StableHlo.after hostOps4 (W8 m ρ c) (Proc.devRef .tc main_v39) = _
  after_results
  rw [k_arg13_8 m ρ c]
  exact Cert.LibRowCast.shapeCast_row_eq_broadcastInDim _ _ _

/-! ## Boundary 10: after region 4 -/

theorem k_arg3_10 : W10 m ρ c (Proc.devRef .tc main_arg3) = (m ((c : Thread nD τ).loc main_arg3)) :=
  (W10_of_ne m ρ c main_arg3 (by decide)).trans (k_arg3_9 m ρ c)
theorem k_arg14_10 : W10 m ρ c (Proc.devRef .tc main_arg14) = (m ((c : Thread nD τ).loc main_arg14)) :=
  (W10_of_ne m ρ c main_arg14 (by decide)).trans (k_arg14_9 m ρ c)
theorem k_arg15_10 : W10 m ρ c (Proc.devRef .tc main_arg15) = (m ((c : Thread nD τ).loc main_arg15)) :=
  (W10_of_ne m ρ c main_arg15 (by decide)).trans (k_arg15_9 m ρ c)
theorem k_arg16_10 : W10 m ρ c (Proc.devRef .tc main_arg16) = (m ((c : Thread nD τ).loc main_arg16)) :=
  (W10_of_ne m ρ c main_arg16 (by decide)).trans (k_arg16_9 m ρ c)
theorem k_arg17_10 : W10 m ρ c (Proc.devRef .tc main_arg17) = (m ((c : Thread nD τ).loc main_arg17)) :=
  (W10_of_ne m ρ c main_arg17 (by decide)).trans (k_arg17_9 m ρ c)
theorem k_v3_10 : W10 m ρ c (Proc.devRef .tc main_v3) = val_main_v3 (m ((c : Thread nD τ).loc main_arg1)) :=
  (W10_of_ne m ρ c main_v3 (by decide)).trans (k_v3_9 m ρ c)
theorem k_v31_10 : W10 m ρ c (Proc.devRef .tc main_v31) = val_main_v51 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W10_of_ne m ρ c main_v31 (by decide)).trans (k_v31_9 m ρ c)
theorem k_v40_10 : W10 m ρ c (Proc.devRef .tc main_v40) = val_main_v64 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine ((W10_arr m ρ c 4).trans (Cert.KernelRegion4.final (V9 m ρ) c)).trans ?_
  show edgeHost (W9 m ρ c (Proc.devRef .tc main_v38)) (W9 m ρ c (Proc.devRef .tc main_arg2)) (W9 m ρ c (Proc.devRef .tc main_arg12)) (W9 m ρ c (Proc.devRef .tc main_v39)) = _
  rw [k_v38_9 m ρ c, k_arg2_9 m ρ c, k_arg12_9 m ρ c, k_v39_9 m ρ c]
  rfl

/-! ## Boundary 11: after host stretch 5 -/

theorem k_arg3_11 : W11 m ρ c (Proc.devRef .tc main_arg3) = (m ((c : Thread nD τ).loc main_arg3)) := by
  show StableHlo.after hostOps5 (W10 m ρ c) (Proc.devRef .tc main_arg3) = _
  after_results
  exact k_arg3_10 m ρ c
theorem k_arg14_11 : W11 m ρ c (Proc.devRef .tc main_arg14) = (m ((c : Thread nD τ).loc main_arg14)) := by
  show StableHlo.after hostOps5 (W10 m ρ c) (Proc.devRef .tc main_arg14) = _
  after_results
  exact k_arg14_10 m ρ c
theorem k_arg16_11 : W11 m ρ c (Proc.devRef .tc main_arg16) = (m ((c : Thread nD τ).loc main_arg16)) := by
  show StableHlo.after hostOps5 (W10 m ρ c) (Proc.devRef .tc main_arg16) = _
  after_results
  exact k_arg16_10 m ρ c
theorem k_arg17_11 : W11 m ρ c (Proc.devRef .tc main_arg17) = (m ((c : Thread nD τ).loc main_arg17)) := by
  show StableHlo.after hostOps5 (W10 m ρ c) (Proc.devRef .tc main_arg17) = _
  after_results
  exact k_arg17_10 m ρ c
theorem k_v31_11 : W11 m ρ c (Proc.devRef .tc main_v31) = val_main_v51 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps5 (W10 m ρ c) (Proc.devRef .tc main_v31) = _
  after_results
  exact k_v31_10 m ρ c
theorem k_v43_11 : W11 m ρ c (Proc.devRef .tc main_v43) = val_main_v67 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  show StableHlo.after hostOps5 (W10 m ρ c) (Proc.devRef .tc main_v43) = _
  after_results
  rw [k_v3_10 m ρ c, k_v40_10 m ρ c]
  rfl
theorem k_v44_11 : W11 m ρ c (Proc.devRef .tc main_v44) = val_main_v72 (m ((c : Thread nD τ).loc main_arg15)) := by
  show StableHlo.after hostOps5 (W10 m ρ c) (Proc.devRef .tc main_v44) = _
  after_results
  rw [k_arg15_10 m ρ c]
  exact Cert.LibRowCast.shapeCast_row_eq_broadcastInDim _ _ _

/-! ## Boundary 12: after region 5 -/

theorem k_arg3_12 : W12 m ρ c (Proc.devRef .tc main_arg3) = (m ((c : Thread nD τ).loc main_arg3)) :=
  (W12_of_ne m ρ c main_arg3 (by decide)).trans (k_arg3_11 m ρ c)
theorem k_arg16_12 : W12 m ρ c (Proc.devRef .tc main_arg16) = (m ((c : Thread nD τ).loc main_arg16)) :=
  (W12_of_ne m ρ c main_arg16 (by decide)).trans (k_arg16_11 m ρ c)
theorem k_arg17_12 : W12 m ρ c (Proc.devRef .tc main_arg17) = (m ((c : Thread nD τ).loc main_arg17)) :=
  (W12_of_ne m ρ c main_arg17 (by decide)).trans (k_arg17_11 m ρ c)
theorem k_v45_12 : W12 m ρ c (Proc.devRef .tc main_v45) = val_main_v75 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine ((W12_arr m ρ c 4).trans (Cert.KernelRegion5.final (V11 m ρ) c)).trans ?_
  show nodeHost (W11 m ρ c (Proc.devRef .tc main_v31)) (W11 m ρ c (Proc.devRef .tc main_v43)) (W11 m ρ c (Proc.devRef .tc main_arg14)) (W11 m ρ c (Proc.devRef .tc main_v44)) = _
  rw [k_v31_11 m ρ c, k_v43_11 m ρ c, k_arg14_11 m ρ c, k_v44_11 m ρ c]
  rfl

/-! ## Boundary 13: after host stretch 6 -/

set_option maxHeartbeats 8000000 in
/-- THE RESULT: at the last boundary the result buffer holds the reference's function of the launch arguments. -/
theorem k_v60_13 : W13 m ρ c (Proc.devRef .tc main_v60) = val_main_v90 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  show StableHlo.after hostOps6 (W12 m ρ c) (Proc.devRef .tc main_v60) = _
  after_results
  rw [k_v45_12 m ρ c, k_arg3_12 m ρ c, k_arg16_12 m ρ c, k_arg17_12 m ρ c]
  rfl

end Cert.KernelBoundaries

end
-- ==== Proof.lean ====
/-
  The claim: the kernel program, its idealization and the idealized reference each run to completion from finite
  inputs leaving their arguments unchanged; the idealization is the kernel program's own text read at the extended
  reals (the ideal pass rewrote nothing); and the idealized kernel program and the idealized reference, run from
  memories that agree on the eighteen arguments, end with equal results.

  The network is three layers of  h ↦ relu((h + Σ_{edges into a node} relu(h[src] + ea·We + be))·W + b)  followed by a
  mean over each graph and a linear layer. The kernel program computes the two dense stages of each layer (the
  messages over the edges, the update over the nodes) block by block in six kernel regions and leaves the gathers, the
  scatter-adds and the pooling to the same host operations the reference uses; the reference multiplies h by the
  constant one before adding the aggregate. At the extended reals the narrowing to bf16 is the identity, a block of a
  matrix product is the product of the block, and 1·h = h for every extended real, so the two programs compute the
  same function of the arguments — no entry needs to be finite for that, and the precondition is not opened.

  The frames of the two kernel programs are the generated ones; the reference's frame is its generated run with the
  result dropped. For the value: the kernel program's run with its result named (KernelRun), that result as the
  reference's function of the launch arguments (Boundaries, over Region0 … Region5, KernelPay and Stages), and the
  reference's generated run and reading.
-/
import proofs.«179752_j27565100106143_1_alg».proof.Defs
import proofs.«179752_j27565100106143_1_alg».proof.Proof.Gen.Kernel
import proofs.«179752_j27565100106143_1_alg».proof.Proof.Gen.Kernel.Skeleton
import proofs.«179752_j27565100106143_1_alg».proof.Proof.Gen.Kernel.Launch
import proofs.«179752_j27565100106143_1_alg».proof.Proof.Gen.Kernel.Points
import proofs.«179752_j27565100106143_1_alg».proof.Proof.Gen.Kernel.Frame
import proofs.«179752_j27565100106143_1_alg».proof.Proof.Gen.KernelIdeal
import proofs.«179752_j27565100106143_1_alg».proof.Proof.Gen.KernelIdeal.Skeleton
import proofs.«179752_j27565100106143_1_alg».proof.Proof.Gen.KernelIdeal.Launch
import proofs.«179752_j27565100106143_1_alg».proof.Proof.Gen.KernelIdeal.Points
import proofs.«179752_j27565100106143_1_alg».proof.Proof.Gen.KernelIdeal.Frame
import proofs.«179752_j27565100106143_1_alg».proof.Proof.Gen.ReferenceIdeal
import proofs.«179752_j27565100106143_1_alg».proof.Proof.Gen.ReferenceIdeal.Run
import proofs.«179752_j27565100106143_1_alg».proof.Proof.Gen.ReferenceIdeal.Read
import proofs.«179752_j27565100106143_1_alg».proof.Proof.Gen.Pre_finite_inputs
import proofs.«179752_j27565100106143_1_alg».proof.Proof.KernelRun
import proofs.«179752_j27565100106143_1_alg».proof.Proof.Boundaries
import Idealize.ShloMosaic.Adequacy
import Idealize.ShloMosaic.Init

noncomputable section

namespace Cert.Proof

open Idealize.ShloMosaic Idealize.SL.Sem Idealize.ShloMosaic.TcCoe

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel program: nothing to restate. -/
theorem preserves : Cert.preserves_Kernel_KernelIdeal := trivial

/-- Both runs end at the reference's function of their own launch arguments, and the launch arguments agree. -/
theorem algebraic : Cert.algebraic_KernelIdeal_ReferenceIdeal := by
  intro m ρ m' ρ' _ hagree
  refine ⟨fun c => Cert.KernelIdeal.Gen.W13 m ρ c (Proc.devRef .tc Cert.KernelIdeal.main_v60),
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v90 m' c = Cert.KernelIdeal.Gen.W13 m ρ c (Proc.devRef .tc Cert.KernelIdeal.main_v60)
  obtain ⟨h0, h1, h2, h3, h4, h5, h6, h7, h8, h9, h10, h11, h12, h13, h14, h15, h16, h17⟩ := hagree c
  rw [Cert.ReferenceIdeal.Read.val_main_v90_eq, Cert.KernelBoundaries.k_v60_13 m ρ c,
    h0, h1, h2, h3, h4, h5, h6, h7, h8, h9, h10, h11, h12, h13, h14, h15, h16, h17]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
